-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x32 : Shape := ⟨3, ![32, 2048, 32]⟩
abbrev S_ : Shape := ⟨0, ![]⟩

class Facts : Prop where
  bcast_S_S32x2048x32 : S_.BroadcastsInDim S32x2048x32 (![] : Fin 0 → Fin S32x2048x32.rank)
  reducesTo_S32x2048x32_S_d0_1_2 : S32x2048x32.ReducesTo [0, 1, 2] S_
  h_S_ : 0 < S_.numel

variable [Facts]

def fn {F : FTy → Type} [FloatOps F] (main_arg0 : FVec F S32x2048x32 .f32) (main_arg1 : FVec F S32x2048x32 .f32) : IVec S_ 1 :=
  let main_v0 : FVec F S32x2048x32 .f32 := Host.absf main_arg0
  let main_cst : FVec F S_ .f32 := constant S_ .f32 0x7F800000#32
  let main_v1 : FVec F S32x2048x32 .f32 := broadcastInDim S32x2048x32 ![] bcast_S_S32x2048x32 main_cst
  let main_v2 : IVec S32x2048x32 1 := cmpf .olt main_v0 main_v1
  let main_c : IVec S_ 1 := constantI S_ 1 1#1
  let main_v3 : IVec S_ 1 := (fun x v => Host.reduce IntOp.andi x v reducesTo_S32x2048x32_S_d0_1_2 h_S_) main_v2 main_c
  let main_v4 : FVec F S32x2048x32 .f32 := Host.absf main_arg1
  let main_cst_0 : FVec F S_ .f32 := constant S_ .f32 0x7F800000#32
  let main_v5 : FVec F S32x2048x32 .f32 := broadcastInDim S32x2048x32 ![] bcast_S_S32x2048x32 main_cst_0
  let main_v6 : IVec S32x2048x32 1 := cmpf .olt main_v4 main_v5
  let main_c_1 : IVec S_ 1 := constantI S_ 1 1#1
  let main_v7 : IVec S_ 1 := (fun x v => Host.reduce IntOp.andi x v reducesTo_S32x2048x32_S_d0_1_2 h_S_) main_v6 main_c_1
  let main_v8 : IVec S_ 1 := andi main_v3 main_v7
  main_v8
-- ==== Kernel.lean ====
abbrev S32x2048x32 : Shape := ⟨3, ![32, 2048, 32]⟩
abbrev S32x2048x1 : Shape := ⟨3, ![32, 2048, 1]⟩
abbrev S1x512x32 : Shape := ⟨3, ![1, 512, 32]⟩
abbrev S1x2048x32 : Shape := ⟨3, ![1, 2048, 32]⟩
abbrev S1x512x1 : Shape := ⟨3, ![1, 512, 1]⟩
abbrev S1x2048x1 : Shape := ⟨3, ![1, 2048, 1]⟩
abbrev S512x32 : Shape := ⟨2, ![512, 32]⟩
abbrev S2048x32 : Shape := ⟨2, ![2048, 32]⟩
abbrev S512 : Shape := ⟨1, ![512]⟩
abbrev S512x1 : Shape := ⟨2, ![512, 1]⟩
abbrev S2048 : Shape := ⟨1, ![2048]⟩
abbrev S1x2048 : Shape := ⟨2, ![1, 2048]⟩
abbrev S512x2048 : Shape := ⟨2, ![512, 2048]⟩
abbrev S32x2048 : Shape := ⟨2, ![32, 2048]⟩
abbrev S_ : Shape := ⟨0, ![]⟩
abbrev S32 : Shape := ⟨1, ![32]⟩

abbrev nBuf : Space → Nat
  | .hbm => 24
  | .vmem => 8
  | .smem => 0
  | _ => 0

abbrev bufTy : (tb : Table) → Fin (tcTables nBuf tb) → BufTy
  | .hbm, ⟨0, _⟩ => ⟨S32x2048x32, .f32⟩
  | .hbm, ⟨1, _⟩ => ⟨S32x2048x32, .f32⟩
  | .hbm, ⟨2, _⟩ => ⟨S32x2048x1, .f32⟩
  | .hbm, ⟨3, _⟩ => ⟨S32x2048x1, .f32⟩
  | .hbm, ⟨4, _⟩ => ⟨S32x2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x512x32, .f32⟩
  | .local _ .vmem, ⟨1, _⟩ => ⟨S1x512x32, .f32⟩
  | .local _ .vmem, ⟨2, _⟩ => ⟨S1x2048x32, .f32⟩
  | .local _ .vmem, ⟨3, _⟩ => ⟨S1x2048x32, .f32⟩
  | .local _ .vmem, ⟨4, _⟩ => ⟨S1x512x1, .f32⟩
  | .local _ .vmem, ⟨5, _⟩ => ⟨S1x512x1, .f32⟩
  | .local _ .vmem, ⟨6, _⟩ => ⟨S1x2048x1, .f32⟩
  | .local _ .vmem, ⟨7, _⟩ => ⟨S1x2048x1, .f32⟩
  | _, _ => ⟨S32x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v27 : BitVec 1 := Scalar.cmpi .eq arg1 c0_i32
  let v28 : BitVec 32 := Scalar.extui v27
  let c0_i32_14 : BitVec 32 := 0#32
  let v29 : BitVec 1 := Scalar.cmpi .ne v28 c0_i32_14
  v29

def k0_cond2 (i : grid0.Coords) : BitVec 1 :=
  let arg1 : BitVec 32 := BitVec.ofNat 32 (i 1).val
  let c0_i32_15 : BitVec 32 := 0#32
  let v30 : BitVec 1 := Scalar.cmpi .ne arg1 c0_i32_15
  let v31 : BitVec 32 := Scalar.extui v30
  let c0_i32_16 : BitVec 32 := 0#32
  let v32 : BitVec 1 := Scalar.cmpi .ne v31 c0_i32_16
  v32

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  inb_S1x2048x32_S1x2048x32_0_0_0 : ∀ a, (![0, 0, 0] : Fin 3 → Nat) a + S1x2048x32.size a ≤ S1x2048x32.size a
  h_S1x2048x32 : 0 < S1x2048x32.numel
  shapeCasts_S1x2048x32_S2048x32 : S1x2048x32.ShapeCasts S2048x32
  bitsLt_bf16_f32 : FTy.bits .bf16 < FTy.bits .f32
  reduces_S512x32_S512 : S512x32.Reduces [1] S512
  shapeCasts_S512_S512x1 : S512.ShapeCasts S512x1
  reduces_S2048x32_S2048 : S2048x32.Reduces [1] S2048
  shapeCasts_S2048_S1x2048 : S2048.ShapeCasts S1x2048
  broadcasts_S512x1_S512x2048 : S512x1.Broadcasts S512x2048
  broadcasts_S1x2048_S512x2048 : S1x2048.Broadcasts S512x2048
  reduces_S512x2048_S512 : S512x2048.Reduces [1] S512
  inb_S1x512x1_S1x512x1_0_0_0 : ∀ a, (![0, 0, 0] : Fin 3 → Nat) a + S1x512x1.size a ≤ S1x512x1.size a
  h_S1x512x1 : 0 < S1x512x1.numel
  shapeCasts_S1x512x1_S512 : S1x512x1.ShapeCasts S512
  shapeCasts_S512_S1x512x1 : S512.ShapeCasts S1x512x1
  reduces_S512x2048_S2048 : S512x2048.Reduces [0] S2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048 : S1x2048x1.ShapeCasts S2048
  shapeCasts_S2048_S1x2048x1 : S2048.ShapeCasts S1x2048x1
  shapeCasts_S32x2048x1_S32x2048 : S32x2048x1.ShapeCasts S32x2048
  reducesTo_S32x2048_S32_d1 : S32x2048.ReducesTo [1] S32
  h_S_ : 0 < S_.numel
  bcast_S_S32 : S_.BroadcastsInDim S32 (![] : Fin 0 → Fin S32.rank)
  reducesTo_S32_S_d0 : S32.ReducesTo [0] S_
  dot_S512x32_S2048x32_S512x2048_1_1_0_0_n_n_wf : DotDims.WF S512x32 S2048x32 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32.size a ≤ S32x2048x32.size a
  hwx0_0 : ∀ i : grid0.Coords, EltTy.bits .f32 = 32 ∨ (Rect.block (s := S32x2048x32) S1x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S32x2048x32.size a
  hwx0_1 : ∀ i : grid0.Coords, EltTy.bits .f32 = 32 ∨ (Rect.block (s := S32x2048x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x2048x1.size a
  hwx0_2 : ∀ i : grid0.Coords, EltTy.bits .f32 = 32 ∨ (Rect.block (s := S32x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S32x2048x1.size a
  hwx0_3 : ∀ i : grid0.Coords, EltTy.bits .f32 = 32 ∨ (Rect.block (s := S32x2048x1) S1x2048x1.size (cc0_transform_3 i) (hinb0_3 i)).WholeWords (EltTy.packing .f32)

variable [Facts₀]

def dot_S512x32_S2048x32_S512x2048_1_1_0_0_n_n : DotDims S512x32 S2048x32 S512x2048 where
  lhsContracting := [1]
  rhsContracting := [1]
  lhsNonContracting := [0]
  rhsNonContracting := [0]
  lhsBatch := []
  rhsBatch := []
  wf := dot_S512x32_S2048x32_S512x2048_1_1_0_0_n_n_wf

abbrev win0_0 : Pipeline.Window sig grid0 :=
  Pipeline.Window.ofSpec (Memref.whole main_arg0) S1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S32x2048x32 : Shape := ⟨3, ![32, 2048, 32]⟩
abbrev S_ : Shape := ⟨0, ![]⟩
abbrev S32x2048 : Shape := ⟨2, ![32, 2048]⟩
abbrev S32x2048x2048 : Shape := ⟨3, ![32, 2048, 2048]⟩
abbrev S32x2048x1 : Shape := ⟨3, ![32, 2048, 1]⟩
abbrev S32x1x2048 : Shape := ⟨3, ![32, 1, 2048]⟩
abbrev S32 : Shape := ⟨1, ![32]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x32, .f32⟩
  | .hbm, ⟨1, _⟩ => ⟨S32x2048x32, .f32⟩
  | .hbm, ⟨2, _⟩ => ⟨S32x2048x32, .f32⟩
  | .hbm, ⟨3, _⟩ => ⟨S_, .f32⟩
  | .hbm, ⟨4, _⟩ => ⟨S32x2048, .f32⟩
  | .hbm, ⟨5, _⟩ => ⟨S32x2048x32, .f32⟩
  | .hbm, ⟨6, _⟩ => ⟨S_, .f32⟩
  | .hbm, ⟨7, _⟩ => ⟨S32x2048, .f32⟩
  | .hbm, ⟨8, _⟩ => ⟨S32x2048x2048, .f32⟩
  | .hbm, ⟨9, _⟩ => ⟨S32x2048x1, .f32⟩
  | .hbm, ⟨10, _⟩ => ⟨S32x1x2048, .f32⟩
  | .hbm, ⟨11, _⟩ => ⟨S32x2048x2048, .f32⟩
  | .hbm, ⟨12, _⟩ => ⟨S32x2048x2048, .f32⟩
  | .hbm, ⟨13, _⟩ => ⟨S32x2048x2048, .f32⟩
  | .hbm, ⟨14, _⟩ => ⟨S_, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S32x2048x2048, .f32⟩
  | .hbm, ⟨22, _⟩ => ⟨S_, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S32x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S32x2048x32_S32x2048_d2 : S32x2048x32.ReducesTo [2] S32x2048
  h_S_ : 0 < S_.numel
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32x2048_d2 : S32x2048x2048.ReducesTo [2] S32x2048
  reducesTo_S32x2048x2048_S32x2048_d1 : S32x2048x2048.ReducesTo [1] S32x2048
  reducesTo_S32x2048_S32_d1 : S32x2048.ReducesTo [1] S32
  bcast_S_S32 : S_.BroadcastsInDim S32 (![] : Fin 0 → Fin S32.rank)
  reducesTo_S32_S_d0 : S32.ReducesTo [0] S_
  dot_S32x2048x32_S32x2048x32_S32x2048x2048_2_2_1_1_0_0_wf : DotDims.WF S32x2048x32 S32x2048x32 S32x2048x2048 [2] [2] [1] [1] [0] [0]

variable [Facts₀]

def dot_S32x2048x32_S32x2048x32_S32x2048x2048_2_2_1_1_0_0 : DotDims S32x2048x32 S32x2048x32 S32x2048x2048 where
  lhsContracting := [2]
  rhsContracting := [2]
  lhsNonContracting := [1]
  rhsNonContracting := [1]
  lhsBatch := [0]
  rhsBatch := [0]
  wf := dot_S32x2048x32_S32x2048x32_S32x2048x2048_2_2_1_1_0_0_wf

class Facts : Prop extends Facts₀ where

variable [Facts]
-- ==== Proof.KernelRuns.lean ====
/-
  The kernel body of `Kernel`, run at every grid point, and the frame run of the whole program.

  The grid is 32 batches by 4 row tiles, point `t` = batch `t / 4`, tile `t % 4`. At a point the body loads the
  tile's 512 rows of `X` and all 2048 rows of `Y` of the batch, forms the 512 x 2048 distance block, stores the
  row minima into the first output's block, and the column minima into the second output's block: at the first
  tile of a batch (`t % 4 = 0`) as they are, at a later tile as the entrywise minimum with what the block holds.
  The second output's block index does not move within a batch, so its staging buffer is written back only after
  the last tile (`t % 4 = 3`) and at a later tile still holds what the tile before left: the running minimum.

  So there are two cases, decided by the point: FIRST (`t % 4 = 0`) and LATER. Each case's run is one symbolic
  execution of the body's skeleton; what it leaves in the two output buffers is read back from the stores it made.
  The contents after each point are then defined by recursion on the point, the proof data of the pipeline is
  stated over them, and the library's launch theorem gives the run of the whole program.
-/
import proofs.«151885_j50190987821461_1_alg».proof.Proof.Gen.Kernel.Frame
import proofs.«151885_j50190987821461_1_alg».proof.Proof.Gen.Kernel.Skeleton
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid -/

/-- The first branch (store the column minima as they are) is taken exactly at the first tile of a batch. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch (take the minimum with the block's contents) is taken exactly at the later tiles. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the second output's block at every point: the tile index is zero or it
    is not. So that window is idle nowhere. -/
theorem live3 (i : cfg0.grid.Coords) : cfg0.idle 3 i = false := by
  have h : ∀ k : Fin 4,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)) = false := by
    decide
  exact h (i 1)

/-! ## The staging memrefs at a point -/

abbrev ms0 (t : Fin cfg0.N) : Memref sig .tc .vmem S1x512x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)

/-- One staging buffer of each output window, through which its contents are stated (which one does not matter:
    the stores cover the block). -/
abbrev VO2 : View sig .tc .vmem S1x512x1 .f32 := (Memref.whole cc0_stg2_0 : Memref sig .tc .vmem S1x512x1 .f32).view
abbrev VO3 : View sig .tc .vmem S1x2048x1 .f32 := (Memref.whole cc0_stg3_0 : Memref sig .tc .vmem S1x2048x1 .f32).view

/-! ## The body's run, case by case -/

set_option maxHeartbeats 1000000 in
/-- FIRST tile of a batch. On whole staging memrefs, the two inputs' at their blocks `x0`, `x1` and the two
    outputs' at anything, the body runs to its end, holding the inputs' as they were and each output's buffer
    with the stores it made written (the lists of stores are what the run finds). -/
noncomputable def runFirst (c : Dev nD) (i : grid0.Coords)
    (arg2 : Memref sig .tc .vmem S1x512x32 .f32) (harg2 : arg2.IsWhole)
    (arg3 : Memref sig .tc .vmem S1x2048x32 .f32) (harg3 : arg3.IsWhole)
    (arg4 : Memref sig .tc .vmem S1x512x1 .f32) (harg4 : arg4.IsWhole)
    (arg5 : Memref sig .tc .vmem S1x2048x1 .f32) (harg5 : arg5.IsWhole)
    (hc1 : k0_cond1 i = 1#1) (hc2 : ¬ k0_cond2 i = 1#1)
    (x0 : Vec F S1x512x32 .f32) (x1 : Vec F S1x2048x32 .f32) :
    { L : List (View.Piece (Elt F) S1x512x1 .f32) × List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- LATER tile of a batch: the same, the second output's buffer at its running contents `xo`, which the body
    reads before it stores. -/
noncomputable def runLater (c : Dev nD) (i : grid0.Coords)
    (arg2 : Memref sig .tc .vmem S1x512x32 .f32) (harg2 : arg2.IsWhole)
    (arg3 : Memref sig .tc .vmem S1x2048x32 .f32) (harg3 : arg3.IsWhole)
    (arg4 : Memref sig .tc .vmem S1x512x1 .f32) (harg4 : arg4.IsWhole)
    (arg5 : Memref sig .tc .vmem S1x2048x1 .f32) (harg5 : arg5.IsWhole)
    (hc1 : ¬ k0_cond1 i = 1#1) (hc2 : k0_cond2 i = 1#1)
    (x0 : Vec F S1x512x32 .f32) (x1 : Vec F S1x2048x32 .f32) (xo : Vec F S1x2048x1 .f32) :
    { L : List (View.Piece (Elt F) S1x512x1 .f32) × List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.KernelBody.lean ====
/-
  What the two output blocks of `Kernel` hold after each grid point — by recursion on the point over the two
  cases' runs —, the pipeline's proof data stated over that, and the body's triple at a generic point.
-/
import proofs.«151885_j50190987821461_1_alg».proof.Proof.KernelRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave in the two output blocks, case by case -/

section
variable (c : Dev nD) (i : grid0.Coords)
  (arg2 : Memref sig .tc .vmem S1x512x32 .f32) (harg2 : arg2.IsWhole)
  (arg3 : Memref sig .tc .vmem S1x2048x32 .f32) (harg3 : arg3.IsWhole)
  (arg4 : Memref sig .tc .vmem S1x512x1 .f32) (harg4 : arg4.IsWhole)
  (arg5 : Memref sig .tc .vmem S1x2048x1 .f32) (harg5 : arg5.IsWhole)
  (x0 : Vec F S1x512x32 .f32) (x1 : Vec F S1x2048x32 .f32)

/-- FIRST tile: the one store into the first output's block covers it. -/
theorem coverFirst2 (hc1 : k0_cond1 i = 1#1) (hc2 : ¬ k0_cond2 i = 1#1) (y : S1x512x1.Idx) :
    ∃ pc ∈ (runFirst c i arg2 harg2 arg3 harg3 arg4 harg4 arg5 harg5 hc1 hc2 x0 x1).1.1, y ∈ pc.1.set :=
  View.cover_of_tiledL (runFirst c i arg2 harg2 arg3 harg3 arg4 harg4 arg5 harg5 hc1 hc2 x0 x1).1.1 S1x512x1.size (by sl_kernel_rfl) y
/-- FIRST tile: the one store into the second output's block covers it. -/
theorem coverFirst3 (hc1 : k0_cond1 i = 1#1) (hc2 : ¬ k0_cond2 i = 1#1) (y : S1x2048x1.Idx) :
    ∃ pc ∈ (runFirst c i arg2 harg2 arg3 harg3 arg4 harg4 arg5 harg5 hc1 hc2 x0 x1).1.2, y ∈ pc.1.set :=
  View.cover_of_tiledL (runFirst c i arg2 harg2 arg3 harg3 arg4 harg4 arg5 harg5 hc1 hc2 x0 x1).1.2 S1x2048x1.size (by sl_kernel_rfl) y
/-- LATER tile: likewise. -/
theorem coverLater2 (hc1 : ¬ k0_cond1 i = 1#1) (hc2 : k0_cond2 i = 1#1) (xo : Vec F S1x2048x1 .f32) (y : S1x512x1.Idx) :
    ∃ pc ∈ (runLater c i arg2 harg2 arg3 harg3 arg4 harg4 arg5 harg5 hc1 hc2 x0 x1 xo).1.1, y ∈ pc.1.set :=
  View.cover_of_tiledL (runLater c i arg2 harg2 arg3 harg3 arg4 harg4 arg5 harg5 hc1 hc2 x0 x1 xo).1.1 S1x512x1.size (by sl_kernel_rfl) y
theorem coverLater3 (hc1 : ¬ k0_cond1 i = 1#1) (hc2 : k0_cond2 i = 1#1) (xo : Vec F S1x2048x1 .f32) (y : S1x2048x1.Idx) :
    ∃ pc ∈ (runLater c i arg2 harg2 arg3 harg3 arg4 harg4 arg5 harg5 hc1 hc2 x0 x1 xo).1.2, y ∈ pc.1.set :=
  View.cover_of_tiledL (runLater c i arg2 harg2 arg3 harg3 arg4 harg4 arg5 harg5 hc1 hc2 x0 x1 xo).1.2 S1x2048x1.size (by sl_kernel_rfl) y

/-- What the FIRST-tile run leaves in the first output's block: its stores read back. -/
def outFirst2 (hc1 : k0_cond1 i = 1#1) (hc2 : ¬ k0_cond2 i = 1#1) : Vec F S1x512x1 .f32 :=
  VO2.read (Elt F) (VO2.writes (Elt F) VO2.junk (runFirst c i arg2 harg2 arg3 harg3 arg4 harg4 arg5 harg5 hc1 hc2 x0 x1).1.1)
/-- … and in the second output's block. -/
def outFirst3 (hc1 : k0_cond1 i = 1#1) (hc2 : ¬ k0_cond2 i = 1#1) : Vec F S1x2048x1 .f32 :=
  VO3.read (Elt F) (VO3.writes (Elt F) VO3.junk (runFirst c i arg2 harg2 arg3 harg3 arg4 harg4 arg5 harg5 hc1 hc2 x0 x1).1.2)
/-- What a LATER-tile run leaves in the first output's block, the second's having held `xo`. -/
def outLater2 (hc1 : ¬ k0_cond1 i = 1#1) (hc2 : k0_cond2 i = 1#1) (xo : Vec F S1x2048x1 .f32) : Vec F S1x512x1 .f32 :=
  VO2.read (Elt F) (VO2.writes (Elt F) VO2.junk (runLater c i arg2 harg2 arg3 harg3 arg4 harg4 arg5 harg5 hc1 hc2 x0 x1 xo).1.1)
/-- … and in the second output's block. -/
def outLater3 (hc1 : ¬ k0_cond1 i = 1#1) (hc2 : k0_cond2 i = 1#1) (xo : Vec F S1x2048x1 .f32) : Vec F S1x2048x1 .f32 :=
  VO3.read (Elt F) (VO3.writes (Elt F) VO3.junk (runLater c i arg2 harg2 arg3 harg3 arg4 harg4 arg5 harg5 hc1 hc2 x0 x1 xo).1.2)
end

/-! ## What the output blocks hold after each point -/

/-- The contents of the two output staging buffers after the body at position `n`: at the first tile of a batch
    what the FIRST run leaves; at a later tile what the LATER run leaves, over what the point before left in the
    second output's buffer (which is not written back in between). -/
def outsAt (c : Dev nD) : (n : ℕ) → n < cfg0.N → Vec F S1x512x1 .f32 × Vec F S1x2048x1 .f32
  | 0, hn =>
    (outFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
        (iblk m c 0 ⟨0, hn⟩) (iblk m c 1 ⟨0, hn⟩) ((first_iff ⟨0, hn⟩).mpr (Nat.zero_mod _)) (fun h => (later_iff ⟨0, hn⟩).mp h (Nat.zero_mod _)),
     outFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
        (iblk m c 0 ⟨0, hn⟩) (iblk m c 1 ⟨0, hn⟩) ((first_iff ⟨0, hn⟩).mpr (Nat.zero_mod _)) (fun h => (later_iff ⟨0, hn⟩).mp h (Nat.zero_mod _)))
  | n + 1, hn =>
    if h0 : (n + 1) % 4 = 0 then
      (outFirst2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) ((first_iff ⟨n + 1, hn⟩).mpr h0) (fun h => (later_iff ⟨n + 1, hn⟩).mp h h0),
       outFirst3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) ((first_iff ⟨n + 1, hn⟩).mpr h0) (fun h => (later_iff ⟨n + 1, hn⟩).mp h h0))
    else
      (outLater2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) (fun h => h0 ((first_iff ⟨n + 1, hn⟩).mp h)) ((later_iff ⟨n + 1, hn⟩).mpr h0) (outsAt c n (Nat.lt_of_succ_lt hn)).2,
       outLater3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) (fun h => h0 ((first_iff ⟨n + 1, hn⟩).mp h)) ((later_iff ⟨n + 1, hn⟩).mpr h0) (outsAt c n (Nat.lt_of_succ_lt hn)).2)

/-- `outsAt` at the first tile of a batch. -/
theorem outsAt_first (c : Dev nD) (t : Fin cfg0.N) (h0 : t.val % 4 = 0) :
    outsAt m c t.val t.isLt =
      (outFirst2 c (grid0.coords t) (ms0 t) (hs0 t) (ms1 t) (hs1 t) (ms2 t) (hs2 t) (ms3 t) (hs3 t) (iblk m c 0 t) (iblk m c 1 t)
          ((first_iff t).mpr h0) (fun h => (later_iff t).mp h h0),
       outFirst3 c (grid0.coords t) (ms0 t) (hs0 t) (ms1 t) (hs1 t) (ms2 t) (hs2 t) (ms3 t) (hs3 t) (iblk m c 0 t) (iblk m c 1 t)
          ((first_iff t).mpr h0) (fun h => (later_iff t).mp h h0)) := by
  obtain ⟨n, hn⟩ := t
  cases n with
  | zero => exact rfl
  | succ n => exact (dif_pos h0).trans rfl

/-- `outsAt` at a later tile, over what the point before left. -/
theorem outsAt_later (c : Dev nD) (t : Fin cfg0.N) (h0 : ¬ t.val % 4 = 0) :
    outsAt m c t.val t.isLt =
      (outLater2 c (grid0.coords t) (ms0 t) (hs0 t) (ms1 t) (hs1 t) (ms2 t) (hs2 t) (ms3 t) (hs3 t) (iblk m c 0 t) (iblk m c 1 t)
          (fun h => h0 ((first_iff t).mp h)) ((later_iff t).mpr h0) (outsAt m c (t.val - 1) (Nat.lt_of_le_of_lt (Nat.sub_le _ _) t.isLt)).2,
       outLater3 c (grid0.coords t) (ms0 t) (hs0 t) (ms1 t) (hs1 t) (ms2 t) (hs2 t) (ms3 t) (hs3 t) (iblk m c 0 t) (iblk m c 1 t)
          (fun h => h0 ((first_iff t).mp h)) ((later_iff t).mpr h0) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    two outputs' at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile the second output's current staging buffer holds what the body left at the point before:
    the point is not the first, the buffer was not written back in between (it is written back only after the
    last tile of a batch), and the window is idle nowhere and uncut. -/
theorem before3_later (c : Dev nD) (t : Fin cfg0.N) (h0 : ¬ t.val % 4 = 0) (d) :
    (dats m 0 c).before 3 t d = (outsAt m c (t.val - 1) (Nat.lt_of_le_of_lt (Nat.sub_le _ _) t.isLt)).2 := by
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the point is the first tile of its batch or a
    later one; at a later one the second output's buffer holds what the point before left; so that case's run
    applies, and what it leaves is read back from its covering stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [outsAt_first m c t h0]
    dsimp only
    unfold outFirst2 outFirst3
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _)
    unfold owns; iexists _; isplitr
    swap; · iexact H3
    ipureintro; exact View.read_writes_of_cover _ _ _ _ _ (coverFirst3 c _ _ _ _ _ _ _ _ _ _ _ _ _)
  · rw [outsAt_later m c t h0]
    dsimp only
    simp only [before3_later m c t h0]
    unfold outLater2 outLater3
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    unfold owns; iexists _; isplitr
    swap; · iexact H3
    ipureintro; exact View.read_writes_of_cover _ _ _ _ _ (coverLater3 c _ _ _ _ _ _ _ _ _ _ _ _ _ _)

end Cert.Kernel.Body

end
-- ==== Proof.KernelFrame.lean ====
/-
  The body obligation of `Kernel`'s one pipeline at every point, the run of the whole program by the library's
  launch theorem (the region, then the host operations after it), and the frame: the argument arrays end unchanged.
-/
import proofs.«151885_j50190987821461_1_alg».proof.Proof.KernelBody
import Idealize.ShloMosaic.Lib.Pipeline.FrameSuffix

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point (the second output's window is idle nowhere: `live3`). -/
theorem body_obligation (c : Dev nD) : BodyObligation (dats (F := F) m 0 c) (defs₀ (F := F)) Variants.none () Set.univ := fun t => by
  rw [bigSep_W0, bigSep_W0]
  have hl : cfg0.idle 3 (cfg0.grid.coords t) = false := live3 _
  rw [hl]
  exact sound_body m c t

/-! ## The run and the frame -/

set_option backward.isDefEq.respectTransparency.types false in
/-- From any memory with zero counters every weakly fair execution of the program terminates without a fault, and
    every final state has every array of the pipeline at what the library computes from the proof data and every
    other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealRuns.lean ====
/-
  The kernel body of `KernelIdeal`, run at every grid point, and the frame run of the whole program.

  The grid is 32 batches by 4 row tiles, point `t` = batch `t / 4`, tile `t % 4`. At a point the body loads the
  tile's 512 rows of `X` and all 2048 rows of `Y` of the batch, forms the 512 x 2048 distance block, stores the
  row minima into the first output's block, and the column minima into the second output's block: at the first
  tile of a batch (`t % 4 = 0`) as they are, at a later tile as the entrywise minimum with what the block holds.
  The second output's block index does not move within a batch, so its staging buffer is written back only after
  the last tile (`t % 4 = 3`) and at a later tile still holds what the tile before left: the running minimum.

  So there are two cases, decided by the point: FIRST (`t % 4 = 0`) and LATER. Each case's run is one symbolic
  execution of the body's skeleton; what it leaves in the two output buffers is read back from the stores it made.
  The contents after each point are then defined by recursion on the point, the proof data of the pipeline is
  stated over them, and the library's launch theorem gives the run of the whole program.
-/
import proofs.«151885_j50190987821461_1_alg».proof.Proof.Gen.KernelIdeal.Frame
import proofs.«151885_j50190987821461_1_alg».proof.Proof.Gen.KernelIdeal.Skeleton
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid -/

/-- The first branch (store the column minima as they are) is taken exactly at the first tile of a batch. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The second branch (take the minimum with the block's contents) is taken exactly at the later tiles. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the second output's block at every point: the tile index is zero or it
    is not. So that window is idle nowhere. -/
theorem live3 (i : cfg0.grid.Coords) : cfg0.idle 3 i = false := by
  have h : ∀ k : Fin 4,
      (!(Scalar.cmpi .ne (Scalar.extui (Scalar.cmpi .eq (BitVec.ofNat 32 k.val) 0#32)) 0#32 == 1#1)
        && !(Scalar.cmpi .ne (Scalar.extui (Scalar.cmpi .ne (BitVec.ofNat 32 k.val) 0#32)) 0#32 == 1#1)) = false := by
    decide
  exact h (i 1)

/-! ## The staging memrefs at a point -/

abbrev ms0 (t : Fin cfg0.N) : Memref sig .tc .vmem S1x512x32 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x1 .f32 := win0_3.stage (cfg0.slots t 3)
abbrev hs3 (t : Fin cfg0.N) : (ms3 t).IsWhole := hstage0_3 ((cfg0.slots t 3).cast nbuf0_3)

/-- One staging buffer of each output window, through which its contents are stated (which one does not matter:
    the stores cover the block). -/
abbrev VO2 : View sig .tc .vmem S1x512x1 .f32 := (Memref.whole cc0_stg2_0 : Memref sig .tc .vmem S1x512x1 .f32).view
abbrev VO3 : View sig .tc .vmem S1x2048x1 .f32 := (Memref.whole cc0_stg3_0 : Memref sig .tc .vmem S1x2048x1 .f32).view

/-! ## The body's run, case by case -/

set_option maxHeartbeats 1000000 in
/-- FIRST tile of a batch. On whole staging memrefs, the two inputs' at their blocks `x0`, `x1` and the two
    outputs' at anything, the body runs to its end, holding the inputs' as they were and each output's buffer
    with the stores it made written (the lists of stores are what the run finds). -/
noncomputable def runFirst (c : Dev nD) (i : grid0.Coords)
    (arg2 : Memref sig .tc .vmem S1x512x32 .f32) (harg2 : arg2.IsWhole)
    (arg3 : Memref sig .tc .vmem S1x2048x32 .f32) (harg3 : arg3.IsWhole)
    (arg4 : Memref sig .tc .vmem S1x512x1 .f32) (harg4 : arg4.IsWhole)
    (arg5 : Memref sig .tc .vmem S1x2048x1 .f32) (harg5 : arg5.IsWhole)
    (hc1 : k0_cond1 i = 1#1) (hc2 : ¬ k0_cond2 i = 1#1)
    (x0 : Vec F S1x512x32 .f32) (x1 : Vec F S1x2048x32 .f32) :
    { L : List (View.Piece (Elt F) S1x512x1 .f32) × List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- LATER tile of a batch: the same, the second output's buffer at its running contents `xo`, which the body
    reads before it stores. -/
noncomputable def runLater (c : Dev nD) (i : grid0.Coords)
    (arg2 : Memref sig .tc .vmem S1x512x32 .f32) (harg2 : arg2.IsWhole)
    (arg3 : Memref sig .tc .vmem S1x2048x32 .f32) (harg3 : arg3.IsWhole)
    (arg4 : Memref sig .tc .vmem S1x512x1 .f32) (harg4 : arg4.IsWhole)
    (arg5 : Memref sig .tc .vmem S1x2048x1 .f32) (harg5 : arg5.IsWhole)
    (hc1 : ¬ k0_cond1 i = 1#1) (hc2 : k0_cond2 i = 1#1)
    (x0 : Vec F S1x512x32 .f32) (x1 : Vec F S1x2048x32 .f32) (xo : Vec F S1x2048x1 .f32) :
    { L : List (View.Piece (Elt F) S1x512x1 .f32) × List (View.Piece (Elt F) S1x2048x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L.1)
                ∗ (∃ f, arg5.view.loc (c : Thread nD τ) ↦[arg5.view.set]{fullShare} arg5.view.writes (Elt F) f L.2)) -∗ K ⟨⟩))
          ⊢ wp frame (wpE (defs₀ (F := F)) Variants.none c none) E (cc0__chamfer_kernel i arg2 harg2 arg3 harg3 arg4 harg4 arg5 harg5) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.KernelIdealBody.lean ====
/-
  What the two output blocks of `KernelIdeal` hold after each grid point — by recursion on the point over the two
  cases' runs —, the pipeline's proof data stated over that, and the body's triple at a generic point.
-/
import proofs.«151885_j50190987821461_1_alg».proof.Proof.KernelIdealRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores leave in the two output blocks, case by case -/

section
variable (c : Dev nD) (i : grid0.Coords)
  (arg2 : Memref sig .tc .vmem S1x512x32 .f32) (harg2 : arg2.IsWhole)
  (arg3 : Memref sig .tc .vmem S1x2048x32 .f32) (harg3 : arg3.IsWhole)
  (arg4 : Memref sig .tc .vmem S1x512x1 .f32) (harg4 : arg4.IsWhole)
  (arg5 : Memref sig .tc .vmem S1x2048x1 .f32) (harg5 : arg5.IsWhole)
  (x0 : Vec F S1x512x32 .f32) (x1 : Vec F S1x2048x32 .f32)

/-- FIRST tile: the one store into the first output's block covers it. -/
theorem coverFirst2 (hc1 : k0_cond1 i = 1#1) (hc2 : ¬ k0_cond2 i = 1#1) (y : S1x512x1.Idx) :
    ∃ pc ∈ (runFirst c i arg2 harg2 arg3 harg3 arg4 harg4 arg5 harg5 hc1 hc2 x0 x1).1.1, y ∈ pc.1.set :=
  View.cover_of_tiledL (runFirst c i arg2 harg2 arg3 harg3 arg4 harg4 arg5 harg5 hc1 hc2 x0 x1).1.1 S1x512x1.size (by sl_kernel_rfl) y
/-- FIRST tile: the one store into the second output's block covers it. -/
theorem coverFirst3 (hc1 : k0_cond1 i = 1#1) (hc2 : ¬ k0_cond2 i = 1#1) (y : S1x2048x1.Idx) :
    ∃ pc ∈ (runFirst c i arg2 harg2 arg3 harg3 arg4 harg4 arg5 harg5 hc1 hc2 x0 x1).1.2, y ∈ pc.1.set :=
  View.cover_of_tiledL (runFirst c i arg2 harg2 arg3 harg3 arg4 harg4 arg5 harg5 hc1 hc2 x0 x1).1.2 S1x2048x1.size (by sl_kernel_rfl) y
/-- LATER tile: likewise. -/
theorem coverLater2 (hc1 : ¬ k0_cond1 i = 1#1) (hc2 : k0_cond2 i = 1#1) (xo : Vec F S1x2048x1 .f32) (y : S1x512x1.Idx) :
    ∃ pc ∈ (runLater c i arg2 harg2 arg3 harg3 arg4 harg4 arg5 harg5 hc1 hc2 x0 x1 xo).1.1, y ∈ pc.1.set :=
  View.cover_of_tiledL (runLater c i arg2 harg2 arg3 harg3 arg4 harg4 arg5 harg5 hc1 hc2 x0 x1 xo).1.1 S1x512x1.size (by sl_kernel_rfl) y
theorem coverLater3 (hc1 : ¬ k0_cond1 i = 1#1) (hc2 : k0_cond2 i = 1#1) (xo : Vec F S1x2048x1 .f32) (y : S1x2048x1.Idx) :
    ∃ pc ∈ (runLater c i arg2 harg2 arg3 harg3 arg4 harg4 arg5 harg5 hc1 hc2 x0 x1 xo).1.2, y ∈ pc.1.set :=
  View.cover_of_tiledL (runLater c i arg2 harg2 arg3 harg3 arg4 harg4 arg5 harg5 hc1 hc2 x0 x1 xo).1.2 S1x2048x1.size (by sl_kernel_rfl) y

/-- What the FIRST-tile run leaves in the first output's block: its stores read back. -/
def outFirst2 (hc1 : k0_cond1 i = 1#1) (hc2 : ¬ k0_cond2 i = 1#1) : Vec F S1x512x1 .f32 :=
  VO2.read (Elt F) (VO2.writes (Elt F) VO2.junk (runFirst c i arg2 harg2 arg3 harg3 arg4 harg4 arg5 harg5 hc1 hc2 x0 x1).1.1)
/-- … and in the second output's block. -/
def outFirst3 (hc1 : k0_cond1 i = 1#1) (hc2 : ¬ k0_cond2 i = 1#1) : Vec F S1x2048x1 .f32 :=
  VO3.read (Elt F) (VO3.writes (Elt F) VO3.junk (runFirst c i arg2 harg2 arg3 harg3 arg4 harg4 arg5 harg5 hc1 hc2 x0 x1).1.2)
/-- What a LATER-tile run leaves in the first output's block, the second's having held `xo`. -/
def outLater2 (hc1 : ¬ k0_cond1 i = 1#1) (hc2 : k0_cond2 i = 1#1) (xo : Vec F S1x2048x1 .f32) : Vec F S1x512x1 .f32 :=
  VO2.read (Elt F) (VO2.writes (Elt F) VO2.junk (runLater c i arg2 harg2 arg3 harg3 arg4 harg4 arg5 harg5 hc1 hc2 x0 x1 xo).1.1)
/-- … and in the second output's block. -/
def outLater3 (hc1 : ¬ k0_cond1 i = 1#1) (hc2 : k0_cond2 i = 1#1) (xo : Vec F S1x2048x1 .f32) : Vec F S1x2048x1 .f32 :=
  VO3.read (Elt F) (VO3.writes (Elt F) VO3.junk (runLater c i arg2 harg2 arg3 harg3 arg4 harg4 arg5 harg5 hc1 hc2 x0 x1 xo).1.2)
end

/-! ## What the output blocks hold after each point -/

/-- The contents of the two output staging buffers after the body at position `n`: at the first tile of a batch
    what the FIRST run leaves; at a later tile what the LATER run leaves, over what the point before left in the
    second output's buffer (which is not written back in between). -/
def outsAt (c : Dev nD) : (n : ℕ) → n < cfg0.N → Vec F S1x512x1 .f32 × Vec F S1x2048x1 .f32
  | 0, hn =>
    (outFirst2 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
        (iblk m c 0 ⟨0, hn⟩) (iblk m c 1 ⟨0, hn⟩) ((first_iff ⟨0, hn⟩).mpr (Nat.zero_mod _)) (fun h => (later_iff ⟨0, hn⟩).mp h (Nat.zero_mod _)),
     outFirst3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
        (iblk m c 0 ⟨0, hn⟩) (iblk m c 1 ⟨0, hn⟩) ((first_iff ⟨0, hn⟩).mpr (Nat.zero_mod _)) (fun h => (later_iff ⟨0, hn⟩).mp h (Nat.zero_mod _)))
  | n + 1, hn =>
    if h0 : (n + 1) % 4 = 0 then
      (outFirst2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) ((first_iff ⟨n + 1, hn⟩).mpr h0) (fun h => (later_iff ⟨n + 1, hn⟩).mp h h0),
       outFirst3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) ((first_iff ⟨n + 1, hn⟩).mpr h0) (fun h => (later_iff ⟨n + 1, hn⟩).mp h h0))
    else
      (outLater2 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) (fun h => h0 ((first_iff ⟨n + 1, hn⟩).mp h)) ((later_iff ⟨n + 1, hn⟩).mpr h0) (outsAt c n (Nat.lt_of_succ_lt hn)).2,
       outLater3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
          (iblk m c 0 ⟨n + 1, hn⟩) (iblk m c 1 ⟨n + 1, hn⟩) (fun h => h0 ((first_iff ⟨n + 1, hn⟩).mp h)) ((later_iff ⟨n + 1, hn⟩).mpr h0) (outsAt c n (Nat.lt_of_succ_lt hn)).2)

/-- `outsAt` at the first tile of a batch. -/
theorem outsAt_first (c : Dev nD) (t : Fin cfg0.N) (h0 : t.val % 4 = 0) :
    outsAt m c t.val t.isLt =
      (outFirst2 c (grid0.coords t) (ms0 t) (hs0 t) (ms1 t) (hs1 t) (ms2 t) (hs2 t) (ms3 t) (hs3 t) (iblk m c 0 t) (iblk m c 1 t)
          ((first_iff t).mpr h0) (fun h => (later_iff t).mp h h0),
       outFirst3 c (grid0.coords t) (ms0 t) (hs0 t) (ms1 t) (hs1 t) (ms2 t) (hs2 t) (ms3 t) (hs3 t) (iblk m c 0 t) (iblk m c 1 t)
          ((first_iff t).mpr h0) (fun h => (later_iff t).mp h h0)) := by
  obtain ⟨n, hn⟩ := t
  cases n with
  | zero => exact rfl
  | succ n => exact (dif_pos h0).trans rfl

/-- `outsAt` at a later tile, over what the point before left. -/
theorem outsAt_later (c : Dev nD) (t : Fin cfg0.N) (h0 : ¬ t.val % 4 = 0) :
    outsAt m c t.val t.isLt =
      (outLater2 c (grid0.coords t) (ms0 t) (hs0 t) (ms1 t) (hs1 t) (ms2 t) (hs2 t) (ms3 t) (hs3 t) (iblk m c 0 t) (iblk m c 1 t)
          (fun h => h0 ((first_iff t).mp h)) ((later_iff t).mpr h0) (outsAt m c (t.val - 1) (Nat.lt_of_le_of_lt (Nat.sub_le _ _) t.isLt)).2,
       outLater3 c (grid0.coords t) (ms0 t) (hs0 t) (ms1 t) (hs1 t) (ms2 t) (hs2 t) (ms3 t) (hs3 t) (iblk m c 0 t) (iblk m c 1 t)
          (fun h => h0 ((first_iff t).mp h)) ((later_iff t).mpr h0) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    two outputs' at `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile the second output's current staging buffer holds what the body left at the point before:
    the point is not the first, the buffer was not written back in between (it is written back only after the
    last tile of a batch), and the window is idle nowhere and uncut. -/
theorem before3_later (c : Dev nD) (t : Fin cfg0.N) (h0 : ¬ t.val % 4 = 0) (d) :
    (dats m 0 c).before 3 t d = (outsAt m c (t.val - 1) (Nat.lt_of_le_of_lt (Nat.sub_le _ _) t.isLt)).2 := by
  rw [Dat.before_out_kept _ 3 rfl t (by omega) (Bool.eq_false_iff.mpr fun h => by have := (flush0_3 _).mp h; dsimp only at this; omega)
    live3 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the point is the first tile of its batch or a
    later one; at a later one the second output's buffer holds what the point before left; so that case's run
    applies, and what it leaves is read back from its covering stores. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [outsAt_first m c t h0]
    dsimp only
    unfold outFirst2 outFirst3
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverFirst2 c _ _ _ _ _ _ _ _ _ _ _ _ _)
    unfold owns; iexists _; isplitr
    swap; · iexact H3
    ipureintro; exact View.read_writes_of_cover _ _ _ _ _ (coverFirst3 c _ _ _ _ _ _ _ _ _ _ _ _ _)
  · rw [outsAt_later m c t h0]
    dsimp only
    simp only [before3_later m c t h0]
    unfold outLater2 outLater3
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverLater2 c _ _ _ _ _ _ _ _ _ _ _ _ _ _)
    unfold owns; iexists _; isplitr
    swap; · iexact H3
    ipureintro; exact View.read_writes_of_cover _ _ _ _ _ (coverLater3 c _ _ _ _ _ _ _ _ _ _ _ _ _ _)

end Cert.KernelIdeal.Body

end
-- ==== Proof.KernelIdealFrame.lean ====
/-
  The body obligation of `KernelIdeal`'s one pipeline at every point, the run of the whole program by the library's
  launch theorem (the region, then the host operations after it), and the frame: the argument arrays end unchanged.
-/
import proofs.«151885_j50190987821461_1_alg».proof.Proof.KernelIdealBody
import Idealize.ShloMosaic.Lib.Pipeline.FrameSuffix

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point (the second output's window is idle nowhere: `live3`). -/
theorem body_obligation (c : Dev nD) : BodyObligation (dats (F := F) m 0 c) (defs₀ (F := F)) Variants.none () Set.univ := fun t => by
  rw [bigSep_W0, bigSep_W0]
  have hl : cfg0.idle 3 (cfg0.grid.coords t) = false := live3 _
  rw [hl]
  exact sound_body m c t

/-! ## The run and the frame -/

set_option backward.isDefEq.respectTransparency.types false in
/-- From any memory with zero counters every weakly fair execution of the program terminates without a fault, and
    every final state has every array of the pipeline at what the library computes from the proof data and every
    other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibMinFold.lean ====
/-
  Minimum reductions as folds, and a fold of `min` over a range taken block by block.

  * At the ideal values a `vector.multi_reduction <minimumf>` over ONE axis is, at each reduced index, the fold of
    `min` from the accumulator's value over that axis's coordinates; the host's one-operand `stablehlo.reduce` with a
    `minimum` body likewise, from the initial value.
  * In any linear order, the fold of `min` from `I` over the `(A + 1) * B` values `g 0, g 1, …` is the running minimum
    over the `A + 1` consecutive blocks of `B` values of the blocks' own folds from `I` (`runMin`): a minimum may be
    taken tile by tile.
-/
import Idealize.ShloMosaic.PureOps.Ideal.Laws

namespace Cert.LibMinFold

open Idealize.ShloMosaic

/-- A float `vector.multi_reduction <minimumf>` over one axis, read at `Ideal`: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at `Ideal`: the fold of
    `min` from the initial value over that axis's coordinates. -/
theorem hostReduce_minimumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

variable {α : Type*} [LinearOrder α]

/-- The running minimum of `T 0, …, T i`, taken left to right. -/
def runMin (T : ℕ → α) : ℕ → α
  | 0 => T 0
  | i + 1 => min (runMin T i) (T (i + 1))

theorem le_runMin (T : ℕ → α) (c : α) : ∀ i, c ≤ runMin T i ↔ ∀ i' ≤ i, c ≤ T i'
  | 0 => ⟨fun h i' hi => by obtain rfl : i' = 0 := Nat.le_zero.mp hi; exact h, fun h => h 0 le_rfl⟩
  | i + 1 => by
    show c ≤ min (runMin T i) (T (i + 1)) ↔ _
    rw [le_min_iff, le_runMin T c i]
    constructor
    · rintro ⟨h1, h2⟩ i' hi
      rcases Nat.lt_or_ge i' (i + 1) with h | h
      · exact h1 i' (Nat.lt_succ_iff.mp h)
      · obtain rfl : i' = i + 1 := le_antisymm hi h
        exact h2
    · exact fun h => ⟨fun i' hi => h i' (Nat.le_succ_of_le hi), h (i + 1) le_rfl⟩

/-- A fold of `min` over `N = (A + 1) * B` values is the running minimum over the `A + 1` blocks of `B` consecutive
    values of each block's own fold. -/
theorem fold_min_blocks (A B N : ℕ) (hN : N = (A + 1) * B) (hB : 0 < B) (I : α) (g : ℕ → α) :
    (Finset.univ : Finset (Fin N)).fold min I (fun n => g n.val)
      = runMin (fun i => (Finset.univ : Finset (Fin B)).fold min I (fun r => g (B * i + r.val))) A := by
  refine eq_of_forall_le_iff fun c => ?_
  rw [Finset.le_fold_min, le_runMin]
  constructor
  · rintro ⟨hI, hg⟩ i hi
    rw [Finset.le_fold_min]
    refine ⟨hI, fun r _ => ?_⟩
    have hlt : B * i + r.val < N := by
      have h1 : B * i + r.val < B * (i + 1) := by rw [Nat.mul_succ]; exact Nat.add_lt_add_left r.isLt _
      have h2 : B * (i + 1) ≤ B * (A + 1) := Nat.mul_le_mul_left _ (Nat.succ_le_succ hi)
      rw [hN, Nat.mul_comm (A + 1) B]; exact lt_of_lt_of_le h1 h2
    exact hg ⟨B * i + r.val, hlt⟩ (Finset.mem_univ _)
  · intro h
    have h0 := h 0 (Nat.zero_le _)
    rw [Finset.le_fold_min] at h0
    refine ⟨h0.1, fun n _ => ?_⟩
    have hi : n.val / B ≤ A := by
      have : n.val / B < A + 1 := by
        rw [Nat.div_lt_iff_lt_mul hB]; exact lt_of_lt_of_eq n.isLt hN
      exact Nat.lt_succ_iff.mp this
    have hh := h (n.val / B) hi
    rw [Finset.le_fold_min] at hh
    have := hh.2 ⟨n.val % B, Nat.mod_lt _ hB⟩ (Finset.mem_univ _)
    rwa [Nat.div_add_mod] at this

end Cert.LibMinFold
-- ==== Proof.ChamferSpec.lean ====
/-
  The specification: what both programs compute, as functions of the two point arrays `X`, `Y` : [32, 2048, 32].

  For a batch `b`, a row `n` of `X` and a row `k` of `Y`, the distance is
      D b n k = sqrt (max ((|x|² + |y|²) - 2 · ⟨x, y⟩) 0),     x = X[b, n, :],  y = Y[b, k, :],
  with the squared norms and the inner product plain sums over the 32 features, the literals `2.0` and `0.0` the
  programs' own f32 words. The first result holds, at `(b, n)`, the minimum over `k` of `D b n k` (the nearest point of
  `Y`), the second, at `(b, k)`, the minimum over `n` (the nearest point of `X`); every minimum starts from the f32 word
  of `+inf`. The loss is the mean over the batches of half the sum of the two results' row means.

  The kernel takes the second minimum tile by tile — 4 tiles of 512 rows of `X`, the running minimum kept in the output
  block —, which is the whole minimum (`colMin_eq_runMin`: a fold of `min` taken block by block).

  Rows are indexed by naturals (a row outside the array reads as zeros) so that a tile's row `512 · i + r` needs no
  bound to be written.
-/
import Idealize.ShloMosaic.PureOps.Ideal.Laws
import Idealize.ShloMosaic.Lib.ValueIdx
import proofs.«151885_j50190987821461_1_alg».proof.Proof.LibMinFold

noncomputable section

namespace Cert.Chamfer

open Idealize.ShloMosaic Idealize.ShloMosaic.ValueIdx Cert.LibMinFold

/-- The shape of the two point arrays, of the two results as the kernel writes them, and of the two results read
    as matrices. -/
abbrev Pts : Shape := ⟨3, ![32, 2048, 32]⟩
abbrev Col : Shape := ⟨3, ![32, 2048, 1]⟩
abbrev Mat : Shape := ⟨2, ![32, 2048]⟩
abbrev Vec32 : Shape := ⟨1, ![32]⟩
abbrev Sc : Shape := ⟨0, ![]⟩

/-- Where every minimum starts: the f32 word of `+inf`. -/
abbrev top32 : EReal := Ideal.ofBits .f32 0x7F800000#32

/-- The distance of two rows of 32 features, as both programs spell it. -/
def rowDist (x y : Fin 32 → EReal) : EReal :=
  Ideal.sqrt (max (((∑ d, x d * x d) + (∑ d, y d * y d)) - Ideal.ofBits .f32 0x40000000#32 * (∑ d, x d * y d))
    (Ideal.ofBits .f32 0x00000000#32))

/-- Row `(b, n)` of a point array; zeros outside the array. -/
def row (X : Pts.Idx → EReal) (b n : ℕ) (d : Fin 32) : EReal :=
  if h : b < 32 ∧ n < 2048 then X (ix3 ⟨b, h.1⟩ ⟨n, h.2⟩ d) else 0

theorem row_of_lt (X : Pts.Idx → EReal) (b : Fin 32) (n : Fin 2048) : row X b.val n.val = fun d => X (ix3 b n d) := by
  funext d; unfold row; rw [dif_pos ⟨b.isLt, n.isLt⟩]

variable (X Y : Pts.Idx → EReal)

/-- The distance of row `n` of `X` and row `k` of `Y` in batch `b`. -/
def D (b n k : ℕ) : EReal := rowDist (row X b n) (row Y b k)

/-- The nearest point of `Y` to row `n` of `X`. -/
def rowMin (b n : ℕ) : EReal := (Finset.univ : Finset (Fin 2048)).fold min top32 (fun k => D X Y b n k.val)
/-- The nearest point of `X` to row `k` of `Y`. -/
def colMin (b k : ℕ) : EReal := (Finset.univ : Finset (Fin 2048)).fold min top32 (fun n => D X Y b n.val k)
/-- The same within tile `i` of `X`'s rows (rows `512 · i … 512 · i + 511`). -/
def tileMin (b i k : ℕ) : EReal := (Finset.univ : Finset (Fin 512)).fold min top32 (fun r => D X Y b (512 * i + r.val) k)

/-- The minimum over all rows of `X` is the running minimum over the four tiles of the tiles' minima. -/
theorem colMin_eq_runMin (b k : ℕ) : colMin X Y b k = runMin (fun i => tileMin X Y b i k) 3 :=
  fold_min_blocks 3 512 2048 (by norm_num) (by norm_num) top32 (fun n => D X Y b n k)

/-- The two results, as the kernel's [32, 2048, 1] arrays. -/
def nearestOfX : Col.Idx → EReal := fun j => rowMin X Y (j 0).val (j 1).val
def nearestOfY : Col.Idx → EReal := fun j => colMin X Y (j 0).val (j 1).val

/-- The two results read as [32, 2048] matrices. -/
def nearestOfXMat : Mat.Idx → EReal := fun j => rowMin X Y (j 0).val (j 1).val
def nearestOfYMat : Mat.Idx → EReal := fun j => colMin X Y (j 0).val (j 1).val

/-- The loss from the two results read as [32, 2048] matrices: each one's row means (sum from `0.0`, divided by
    `2048.0`), their sum halved, and the mean of that over the 32 batches — the host operations both programs end
    with, the literals their f32 words. The shape facts are taken as given: each program states its own. -/
def loss (h1 : Mat.ReducesTo [1] Vec32) (h0 : 0 < Sc.numel) (hb : Sc.BroadcastsInDim Vec32 (![] : Fin 0 → Fin Vec32.rank))
    (h2 : Vec32.ReducesTo [0] Sc) (a b : FVec Ideal Mat .f32) : FVec Ideal Sc .f32 :=
  Host.divf
    (Host.reduceAdd
      (Host.divf
        (addf
          (Host.divf (Host.reduceAdd a (constant (F := Ideal) Sc .f32 0x00000000#32) h1 h0)
            (broadcastInDim Vec32 ![] hb (constant (F := Ideal) Sc .f32 0x45000000#32)))
          (Host.divf (Host.reduceAdd b (constant (F := Ideal) Sc .f32 0x00000000#32) h1 h0)
            (broadcastInDim Vec32 ![] hb (constant (F := Ideal) Sc .f32 0x45000000#32))))
        (broadcastInDim Vec32 ![] hb (constant (F := Ideal) Sc .f32 0x40000000#32)))
      (constant (F := Ideal) Sc .f32 0x00000000#32) h2 h0)
    (constant (F := Ideal) Sc .f32 0x42000000#32)

end Cert.Chamfer

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.PayValue.lean ====
/-
  The kernel body's arithmetic read at an index, at the ideal values.

  On the blocks `x0` : [1, 512, 32] (a tile of `X`'s rows) and `x1` : [1, 2048, 32] (the batch's rows of `Y`) the body
  forms the 512 x 2048 block whose entry `(r, k)` is the distance of row `r` of the tile and row `k` of `Y`: the squared
  norms are lane sums broadcast as a column and as a row, the inner product the matrix unit's product into a zero
  accumulator (its operands' change of format is the identity at the ideal values). The first output block is the row
  minima, the second the column minima, as they are at the first tile and as the entrywise minimum with the block's
  contents at a later one.
-/
import proofs.«151885_j50190987821461_1_alg».proof.Proof.Gen.KernelIdeal.Skeleton
import proofs.«151885_j50190987821461_1_alg».proof.Proof.ChamferSpec
import proofs.«151885_j50190987821461_1_alg».proof.Proof.LibKeepdims
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Cert.Chamfer Cert.LibMinFold Cert.LibKeepdims
open Idealize.ShloMosaic Idealize.ShloMosaic.ValueIdx

variable (r : Fin 512) (k : Fin 2048)

/-- The tile's squared row norms, a lane sum kept as a column and broadcast across the block: at `(r, k)` the sum of
    the squares of row `r`. -/
theorem sqRows (v : FVec Ideal S512x32 .f32) :
    broadcastTo S512x2048 (shapeCast S512x1 (multiReduction .add [1] S512 (mulf v v) 0x00000000#32 reduces_S512x32_S512 (.inl rfl) rfl)
        shapeCasts_S512_S512x1) broadcasts_S512x1_S512x2048 (ix2 r k)
      = ∑ d : Fin 32, v (ix2 r d) * v (ix2 r d) :=
  (broadcastTo_a1_ab_apply _ broadcasts_S512x1_S512x2048 r k).trans <|
  (shapeCast_a_a1_apply _ shapeCasts_S512_S512x1 r 0).trans <|
  (Ideal.multiReduction_add_single (mulf v v) 0x00000000#32 reduces_S512x32_S512 (.inl rfl) rfl (ix1 r)).trans <|
  Finset.sum_congr rfl fun d _ => by
    have e : reduces_S512x32_S512.lift (ix1 r) d = ix2 r d :=
      funext fun a => Fin.ext (by match a with | ⟨0, _⟩ => rfl | ⟨1, _⟩ => rfl)
    rw [e]; rfl

/-- The squared norms of `Y`'s rows, a lane sum kept as a row and broadcast down the block: at `(r, k)` the sum of the
    squares of row `k`. -/
theorem sqCols (v : FVec Ideal S2048x32 .f32) :
    broadcastTo S512x2048 (shapeCast S1x2048 (multiReduction .add [1] S2048 (mulf v v) 0x00000000#32 reduces_S2048x32_S2048 (.inl rfl) rfl)
        shapeCasts_S2048_S1x2048) broadcasts_S1x2048_S512x2048 (ix2 r k)
      = ∑ d : Fin 32, v (ix2 k d) * v (ix2 k d) :=
  (broadcastTo_1b_ab_apply _ broadcasts_S1x2048_S512x2048 r k).trans <|
  (shapeCast_a_1a_apply _ shapeCasts_S2048_S1x2048 0 k).trans <|
  (Ideal.multiReduction_add_single (mulf v v) 0x00000000#32 reduces_S2048x32_S2048 (.inl rfl) rfl (ix1 k)).trans <|
  Finset.sum_congr rfl fun d _ => by
    have e : reduces_S2048x32_S2048.lift (ix1 k) d = ix2 k d :=
      funext fun a => Fin.ext (by match a with | ⟨0, _⟩ => rfl | ⟨1, _⟩ => rfl)
    rw [e]; rfl

/-- The product's left operand index at output `(r, k)`: its row coordinate is `r`. -/
theorem lhs_row (i : S512x2048.Idx) (q : dot_S512x32_S2048x32_S512x2048_1_1_0_0_n_n.contr.Idx) : (dot_S512x32_S2048x32_S512x2048_1_1_0_0_n_n.lhsIdx i q 0).val = (i 0).val := by
  unfold DotDims.lhsIdx
  rw [dif_neg (show ¬(0 : Fin S512x32.rank) ∈ dot_S512x32_S2048x32_S512x2048_1_1_0_0_n_n.lhsBatch by decide),
    dif_pos (show (0 : Fin S512x32.rank) ∈ dot_S512x32_S2048x32_S512x2048_1_1_0_0_n_n.lhsNonContracting by decide)]
  rfl
/-- The right operand's row coordinate is `k`. -/
theorem rhs_row (i : S512x2048.Idx) (q : dot_S512x32_S2048x32_S512x2048_1_1_0_0_n_n.contr.Idx) : (dot_S512x32_S2048x32_S512x2048_1_1_0_0_n_n.rhsIdx i q 0).val = (i 1).val := by
  unfold DotDims.rhsIdx
  rw [dif_neg (show ¬(0 : Fin S2048x32.rank) ∈ dot_S512x32_S2048x32_S512x2048_1_1_0_0_n_n.rhsBatch by decide),
    dif_pos (show (0 : Fin S2048x32.rank) ∈ dot_S512x32_S2048x32_S512x2048_1_1_0_0_n_n.rhsNonContracting by decide)]
  rfl

/-- The matrix product of the tile and the transposed rows of `Y` into a zero accumulator: at `(r, k)` the inner
    product of row `r` and row `k` (the operands' truncation to bf16 is the identity at the ideal values). -/
theorem inner (a : FVec Ideal S512x32 .f32) (b : FVec Ideal S2048x32 .f32) :
    matmul dot_S512x32_S2048x32_S512x2048_1_1_0_0_n_n none (truncf .bf16 a bitsLt_bf16_f32) (truncf .bf16 b bitsLt_bf16_f32)
        (constant S512x2048 .f32 0x00000000#32) (ix2 r k)
      = ∑ d : Fin 32, a (ix2 r d) * b (ix2 k d) := by
  refine (Ideal.matmul_constant_zero_apply dot_S512x32_S2048x32_S512x2048_1_1_0_0_n_n none _ _ (ix2 r k)).trans ?_
  rw [← Equiv.sum_comp (ValueIdx.contrEquiv1 dot_S512x32_S2048x32_S512x2048_1_1_0_0_n_n 32 rfl rfl).symm]
  refine Finset.sum_congr rfl fun d _ => ?_
  have hk := ValueIdx.contrEquiv1_symm_val dot_S512x32_S2048x32_S512x2048_1_1_0_0_n_n 32 rfl rfl d
  have el : dot_S512x32_S2048x32_S512x2048_1_1_0_0_n_n.lhsIdx (ix2 r k) ((ValueIdx.contrEquiv1 dot_S512x32_S2048x32_S512x2048_1_1_0_0_n_n 32 rfl rfl).symm d) = ix2 r d :=
    funext fun ax => Fin.ext (by
      match ax with
      | ⟨0, _⟩ => exact lhs_row _ _
      | ⟨1, _⟩ => exact (dot_S512x32_S2048x32_S512x2048_1_1_0_0_n_n.lhsIdx_val_of_single rfl _ _).trans hk)
  have er : dot_S512x32_S2048x32_S512x2048_1_1_0_0_n_n.rhsIdx (ix2 r k) ((ValueIdx.contrEquiv1 dot_S512x32_S2048x32_S512x2048_1_1_0_0_n_n 32 rfl rfl).symm d) = ix2 k d :=
    funext fun ax => Fin.ext (by
      match ax with
      | ⟨0, _⟩ => exact rhs_row _ _
      | ⟨1, _⟩ => exact (dot_S512x32_S2048x32_S512x2048_1_1_0_0_n_n.rhsIdx_val_of_single rfl _ _).trans hk)
  rw [el, er]
  rfl

variable (x0 : Vec Ideal S1x512x32 .f32) (x1 : Vec Ideal S1x2048x32 .f32)

/-- The distance block at `(r, k)`: the distance of the tile's row `r` and `Y`'s row `k`. -/
theorem pay1_apply :
    k0_pay1 (F := Ideal) x0 x1 (ix2 r k) = rowDist (fun d => x0 (ix3 0 r d)) (fun d => x1 (ix3 0 k d)) := by
  unfold k0_pay1 rowDist
  refine congrArg Ideal.sqrt (congrArg₂ max (congrArg₂ (fun a b : EReal => a - b) (congrArg₂ (fun a b : EReal => a + b) ?_ ?_)
    (congrArg (fun a : EReal => Ideal.ofBits .f32 0x40000000#32 * a) ?_)) rfl)
  · exact (sqRows r k _).trans (Finset.sum_congr rfl fun d _ => by rw [shapeCast_1ab_ab_apply])
  · exact (sqCols r k _).trans (Finset.sum_congr rfl fun d _ => by rw [shapeCast_1ab_ab_apply])
  · exact (inner r k _ _).trans (Finset.sum_congr rfl fun d _ => by rw [shapeCast_1ab_ab_apply, shapeCast_1ab_ab_apply])

/-- The block's column minima: at `k` the minimum over the tile's rows of the distance to `Y`'s row `k`. -/
theorem pay3_apply :
    k0_pay3 (F := Ideal) x0 x1 (ix1 k)
      = (Finset.univ : Finset (Fin 512)).fold min top32 (fun r => rowDist (fun d => x0 (ix3 0 r d)) (fun d => x1 (ix3 0 k d))) := by
  unfold k0_pay3
  refine (multiReduction_minimumf_single (k0_pay1 x0 x1) 0x7F800000#32 reduces_S512x2048_S2048 (.inl rfl) rfl (ix1 k)).trans ?_
  refine Finset.fold_congr fun r _ => ?_
  have e : reduces_S512x2048_S2048.lift (ix1 k) r = ix2 r k :=
    funext fun a => Fin.ext (by match a with | ⟨0, _⟩ => rfl | ⟨1, _⟩ => rfl)
  show k0_pay1 x0 x1 (reduces_S512x2048_S2048.lift (ix1 k) r) = _
  rw [e]; exact pay1_apply r k x0 x1

/-- The first output's block: at row `r` the minimum over `Y`'s rows of the distance to the tile's row `r`. -/
theorem pay2_apply (u w : Fin 1) :
    k0_pay2 (F := Ideal) x0 x1 (ix3 u r w)
      = (Finset.univ : Finset (Fin 2048)).fold min top32 (fun k => rowDist (fun d => x0 (ix3 0 r d)) (fun d => x1 (ix3 0 k d))) := by
  unfold k0_pay2
  refine (shapeCast_apply _ shapeCasts_S512_S1x512x1 (ix3 u r w) (ix1 r) ?_).trans ?_
  · rw [Shape.rowMajor_val_one, Shape.rowMajor_val_three]
    show r.val = (u.val * 512 + r.val) * 1 + w.val
    have := u.isLt; have := w.isLt; omega
  refine (multiReduction_minimumf_single (k0_pay1 x0 x1) 0x7F800000#32 reduces_S512x2048_S512 (.inl rfl) rfl (ix1 r)).trans ?_
  refine Finset.fold_congr fun k _ => ?_
  have e : reduces_S512x2048_S512.lift (ix1 r) k = ix2 r k :=
    funext fun a => Fin.ext (by match a with | ⟨0, _⟩ => rfl | ⟨1, _⟩ => rfl)
  show k0_pay1 x0 x1 (reduces_S512x2048_S512.lift (ix1 r) k) = _
  rw [e]; exact pay1_apply r k x0 x1

/-- The second output's block at the first tile: the column minima. -/
theorem pay4_apply (u w : Fin 1) : k0_pay4 (F := Ideal) x0 x1 (ix3 u k w) = k0_pay3 (F := Ideal) x0 x1 (ix1 k) := by
  unfold k0_pay4
  refine shapeCast_apply _ shapeCasts_S2048_S1x2048x1 (ix3 u k w) (ix1 k) ?_
  rw [Shape.rowMajor_val_one, Shape.rowMajor_val_three]
  show k.val = (u.val * 2048 + k.val) * 1 + w.val
  have := u.isLt; have := w.isLt; omega

/-- The second output's block at a later tile: the entrywise minimum of its contents `xo` and the column minima. -/
theorem pay5_apply (xo : Vec Ideal S1x2048x1 .f32) (u w : Fin 1) :
    k0_pay5 (F := Ideal) x0 x1 xo (ix3 u k w) = min (xo (ix3 0 k 0)) (k0_pay3 (F := Ideal) x0 x1 (ix1 k)) := by
  unfold k0_pay5
  refine (shapeCast_apply _ shapeCasts_S2048_S1x2048x1 (ix3 u k w) (ix1 k) ?_).trans ?_
  · rw [Shape.rowMajor_val_one, Shape.rowMajor_val_three]
    show k.val = (u.val * 2048 + k.val) * 1 + w.val
    have := u.isLt; have := w.isLt; omega
  refine congrArg₂ min ?_ rfl
  refine shapeCast_apply _ shapeCasts_S1x2048x1_S2048 (ix1 k) (ix3 0 k 0) ?_
  rw [Shape.rowMajor_val_one, Shape.rowMajor_val_three]
  show (0 * 2048 + k.val) * 1 + 0 = k.val
  omega

end Cert.KernelIdeal.PayValue

end
-- ==== Proof.KernelIdealValue.lean ====
/-
  The idealized kernel's two result arrays, read against the specification.

  1. What each case's run leaves in the output blocks is its one covering store's payload (the run's stores read back).
  2. The blocks the body is handed are rows of the argument arrays: at point `t` (batch `t / 4`, tile `t % 4`) the first
     window's block is rows `512 · (t % 4) …` of `X`'s batch, the second's all rows of `Y`'s batch.
  3. So after point `n` the first output's buffer holds the tile's nearest-point minima and the second's the running
     minimum over the tiles so far of the tiles' column minima — by induction on the point.
  4. Each block written back is the matching block of the specification's array, the blocks cover the arrays, and the
     library's cover lemma gives the two final arrays.
-/
import proofs.«151885_j50190987821461_1_alg».proof.Proof.KernelIdealFrame
import proofs.«151885_j50190987821461_1_alg».proof.Proof.PayValue
import Idealize.ShloMosaic.Lib.Pipeline.Value
import Idealize.ShloMosaic.Lib.Tactic

set_option maxRecDepth 16384

noncomputable section

namespace Cert.KernelIdeal.KValue

open Cert.KernelIdeal Cert.KernelIdeal.Gen Cert.KernelIdeal.Body Cert.KernelIdeal.PayValue Cert.Chamfer Cert.LibMinFold
open Idealize.ShloMosaic Idealize.ShloMosaic.TcCoe Idealize.SL.Sem Idealize.ShloMosaic.ValueIdx
open Idealize.ShloMosaic.Pipeline (Dat)

theorem hz3 : (![0, 0, 0] : Fin 3 → Nat) = fun _ => 0 := funext fun a => by fin_cases a <;> rfl

/-! ## What each case's stores leave -/

section Pieces

variable {F : FTy → Type} [FloatOps F]
variable (c : Dev nD) (i : grid0.Coords)
  (a2 : Memref sig .tc .vmem S1x512x32 .f32) (h2 : a2.IsWhole)
  (a3 : Memref sig .tc .vmem S1x2048x32 .f32) (h3 : a3.IsWhole)
  (a4 : Memref sig .tc .vmem S1x512x1 .f32) (h4 : a4.IsWhole)
  (a5 : Memref sig .tc .vmem S1x2048x1 .f32) (h5 : a5.IsWhole)
  (x0 : Vec F S1x512x32 .f32) (x1 : Vec F S1x2048x32 .f32)

/-- FIRST tile, first output: the row minima of the distance block. -/
theorem outFirst2_eq (hc1 : k0_cond1 i = 1#1) (hc2 : ¬ k0_cond2 i = 1#1) :
    outFirst2 c i a2 h2 a3 h3 a4 h4 a5 h5 x0 x1 hc1 hc2 = k0_pay2 x0 x1 := by
  unfold outFirst2
  rw [View.read_writes_eq_canon _ _ _ (coverFirst2 c i a2 h2 a3 h3 a4 h4 a5 h5 x0 x1 hc1 hc2)]
  unfold runFirst
  dsimp only
  rw [View.canon_unit_zero hz3]
  simp only [View.readAt_eq_ld, h2.read_unread, h3.read_unread, View.ld_unit_zero (S := S1x512x32) hz3,
    View.ld_unit_zero (S := S1x2048x32) hz3]

/-- FIRST tile, second output: the column minima as they are. -/
theorem outFirst3_eq (hc1 : k0_cond1 i = 1#1) (hc2 : ¬ k0_cond2 i = 1#1) :
    outFirst3 c i a2 h2 a3 h3 a4 h4 a5 h5 x0 x1 hc1 hc2 = k0_pay4 x0 x1 := by
  unfold outFirst3
  rw [View.read_writes_eq_canon _ _ _ (coverFirst3 c i a2 h2 a3 h3 a4 h4 a5 h5 x0 x1 hc1 hc2)]
  unfold runFirst
  dsimp only
  rw [View.canon_unit_zero hz3]
  simp only [View.readAt_eq_ld, h2.read_unread, h3.read_unread, View.ld_unit_zero (S := S1x512x32) hz3,
    View.ld_unit_zero (S := S1x2048x32) hz3]

/-- LATER tile, first output: the row minima again. -/
theorem outLater2_eq (hc1 : ¬ k0_cond1 i = 1#1) (hc2 : k0_cond2 i = 1#1) (xo : Vec F S1x2048x1 .f32) :
    outLater2 c i a2 h2 a3 h3 a4 h4 a5 h5 x0 x1 hc1 hc2 xo = k0_pay2 x0 x1 := by
  unfold outLater2
  rw [View.read_writes_eq_canon _ _ _ (coverLater2 c i a2 h2 a3 h3 a4 h4 a5 h5 x0 x1 hc1 hc2 xo)]
  unfold runLater
  dsimp only
  rw [View.canon_unit_zero hz3]
  simp only [View.readAt_eq_ld, h2.read_unread, h3.read_unread, View.ld_unit_zero (S := S1x512x32) hz3,
    View.ld_unit_zero (S := S1x2048x32) hz3]

/-- LATER tile, second output: the minimum of the block's contents `xo` and the column minima. -/
theorem outLater3_eq (hc1 : ¬ k0_cond1 i = 1#1) (hc2 : k0_cond2 i = 1#1) (xo : Vec F S1x2048x1 .f32) :
    outLater3 c i a2 h2 a3 h3 a4 h4 a5 h5 x0 x1 hc1 hc2 xo = k0_pay5 x0 x1 xo := by
  unfold outLater3
  rw [View.read_writes_eq_canon _ _ _ (coverLater3 c i a2 h2 a3 h3 a4 h4 a5 h5 x0 x1 hc1 hc2 xo)]
  unfold runLater
  dsimp only
  rw [View.canon_unit_zero hz3]
  simp only [View.readAt_eq_ld, h2.read_unread, h3.read_unread, h5.read_unread, View.ld_unit_zero (S := S1x512x32) hz3,
    View.ld_unit_zero (S := S1x2048x32) hz3, View.ld_unit_zero (S := S1x2048x1) hz3]

end Pieces

/-! ## The blocks are rows of the argument arrays -/

section Blocks

variable (m : (ℓ : Loc nD τ sig) → Buf (Elt Ideal) ℓ) (ρ : Dev nD → PrngReg)

/-- The two argument arrays on core `c`. -/
abbrev Xa (c : Dev nD) : Pts.Idx → EReal := m ((c : Thread nD τ).loc main_arg0)
abbrev Ya (c : Dev nD) : Pts.Idx → EReal := m ((c : Thread nD τ).loc main_arg1)

/-- The printed index maps over the grid: point `t` is batch `t / 4`, tile `t % 4`; the first input and the first output
    move with both, the second input and the second output with the batch only. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0)
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, win0_2.index t (0 : Fin 3) = t.val / 4 ∧ win0_2.index t (1 : Fin 3) = t.val % 4 ∧ win0_2.index t (2 : Fin 3) = 0)
theorem idx3 : ∀ t : Fin cfg0.N, win0_3.index t (0 : Fin 3) = t.val / 4 ∧ win0_3.index t (1 : Fin 3) = 0 ∧ win0_3.index t (2 : Fin 3) = 0 :=
  (by decide +kernel : ∀ t : Fin grid0.N, win0_3.index t (0 : Fin 3) = t.val / 4 ∧ win0_3.index t (1 : Fin 3) = 0 ∧ win0_3.index t (2 : Fin 3) = 0)

/-- The first window's block at point `t`: rows `512 · (t % 4) + r` of `X`'s batch `t / 4`. -/
theorem iblk0_apply (c : Dev nD) (t : Fin cfg0.N) (r : Fin 512) (d : Fin 32) :
    (iblk m c 0 t : Vec Ideal S1x512x32 .f32) (ix3 0 r d) = row (Xa m c) (t.val / 4) (512 * (t.val % 4) + r.val) d := by
  have hN : t.val < 128 := lt_of_lt_of_eq t.isLt N_0
  have hb : t.val / 4 < 32 ∧ 512 * (t.val % 4) + r.val < 2048 := by have := r.isLt; omega
  obtain ⟨e0, e1, e2⟩ := idx0 t
  unfold row; rw [dif_pos hb]
  unfold iblk; rw [View.read_apply]
  show V m c main_arg0 _ = m ((c : Thread nD τ).loc main_arg0) _
  rw [V_main_arg0]
  congr 1
  funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 32 + 1 * d.val = d.val; omega

/-- The second window's block at point `t`: the rows of `Y`'s batch `t / 4`. -/
theorem iblk1_apply (c : Dev nD) (t : Fin cfg0.N) (k : Fin 2048) (d : Fin 32) :
    (iblk m c 1 t : Vec Ideal S1x2048x32 .f32) (ix3 0 k d) = row (Ya m c) (t.val / 4) k.val d := by
  have hN : t.val < 128 := lt_of_lt_of_eq t.isLt N_0
  have hb : t.val / 4 < 32 ∧ k.val < 2048 := by have := k.isLt; omega
  obtain ⟨e0, e1, e2⟩ := idx1 t
  unfold row; rw [dif_pos hb]
  unfold iblk; rw [View.read_apply]
  show V m c main_arg1 _ = m ((c : Thread nD τ).loc main_arg1) _
  rw [V_main_arg1]
  congr 1
  funext a; apply Fin.ext
  match a with
  | ⟨0, _⟩ => show win0_1.index t (0 : Fin 3) * 1 + 1 * 0 = t.val / 4; omega
  | ⟨1, _⟩ => show win0_1.index t (1 : Fin 3) * 2048 + 1 * k.val = k.val; omega
  | ⟨2, _⟩ => show win0_1.index t (2 : Fin 3) * 32 + 1 * d.val = d.val; omega

/-- So the distance of the tile's row `r` and the batch's row `k` of `Y`, as the body forms it from its two blocks, is
    the specification's distance at the global rows. -/
theorem blockDist (c : Dev nD) (t : Fin cfg0.N) (r : Fin 512) (k : Fin 2048) :
    rowDist (fun d => (iblk m c 0 t : Vec Ideal S1x512x32 .f32) (ix3 0 r d)) (fun d => (iblk m c 1 t : Vec Ideal S1x2048x32 .f32) (ix3 0 k d))
      = D (Xa m c) (Ya m c) (t.val / 4) (512 * (t.val % 4) + r.val) k.val := by
  unfold D
  congr 1
  · funext d; exact iblk0_apply m c t r d
  · funext d; exact iblk1_apply m c t k d

/-! ## After each point -/

/-- The first output's buffer after point `n`: the nearest-point minima of the tile's rows. -/
def accX (X Y : Pts.Idx → EReal) (n : ℕ) : Vec Ideal S1x512x1 .f32 := fun y => rowMin X Y (n / 4) (512 * (n % 4) + (y 1).val)
/-- The second output's buffer after point `n`: the running minimum over the tiles `0 … n % 4` of the batch. -/
def accY (X Y : Pts.Idx → EReal) (n : ℕ) : Vec Ideal S1x2048x1 .f32 := fun y => runMin (fun i => tileMin X Y (n / 4) i (y 1).val) (n % 4)

/-- The row minima the body stores at point `t`. -/
theorem rowsAt (c : Dev nD) (t : Fin cfg0.N) :
    k0_pay2 (F := Ideal) (iblk m c 0 t) (iblk m c 1 t) = accX (Xa m c) (Ya m c) t.val := by
  funext y
  obtain ⟨u, r, w, rfl⟩ : ∃ (u : Fin 1) (r : Fin 512) (w : Fin 1), y = ix3 u r w := ⟨y 0, y 1, y 2, eq_ix3 y⟩
  rw [pay2_apply]
  show _ = rowMin (Xa m c) (Ya m c) (t.val / 4) (512 * (t.val % 4) + r.val)
  unfold rowMin
  exact Finset.fold_congr fun k _ => blockDist m c t r k

/-- The column minima of the tile at point `t`. -/
theorem colsAt (c : Dev nD) (t : Fin cfg0.N) (k : Fin 2048) :
    k0_pay3 (F := Ideal) (iblk m c 0 t) (iblk m c 1 t) (ix1 k) = tileMin (Xa m c) (Ya m c) (t.val / 4) (t.val % 4) k.val := by
  rw [pay3_apply]
  unfold tileMin
  exact Finset.fold_congr fun r _ => blockDist m c t r k

/-- What the two output buffers hold after each point, by induction on the point. -/
theorem outsAt_eq (c : Dev nD) : ∀ (n : ℕ) (h : n < cfg0.N), outsAt m c n h = (accX (Xa m c) (Ya m c) n, accY (Xa m c) (Ya m c) n)
  | 0, h => by
    rw [outsAt_first m c ⟨0, h⟩ rfl, outFirst2_eq, outFirst3_eq]
    refine congrArg₂ Prod.mk (rowsAt m c ⟨0, h⟩) ?_
    funext y
    obtain ⟨u, k, w, rfl⟩ : ∃ (u : Fin 1) (k : Fin 2048) (w : Fin 1), y = ix3 u k w := ⟨y 0, y 1, y 2, eq_ix3 y⟩
    rw [pay4_apply, colsAt]
    rfl
  | n + 1, h => by
    by_cases h0 : (n + 1) % 4 = 0
    · rw [outsAt_first m c ⟨n + 1, h⟩ h0, outFirst2_eq, outFirst3_eq]
      refine congrArg₂ Prod.mk (rowsAt m c ⟨n + 1, h⟩) ?_
      funext y
      obtain ⟨u, k, w, rfl⟩ : ∃ (u : Fin 1) (k : Fin 2048) (w : Fin 1), y = ix3 u k w := ⟨y 0, y 1, y 2, eq_ix3 y⟩
      rw [pay4_apply, colsAt]
      show tileMin (Xa m c) (Ya m c) ((n + 1) / 4) ((n + 1) % 4) k.val = runMin (fun i => tileMin (Xa m c) (Ya m c) ((n + 1) / 4) i k.val) ((n + 1) % 4)
      rw [h0]; rfl
    · rw [outsAt_later m c ⟨n + 1, h⟩ h0, outLater2_eq, outLater3_eq]
      refine congrArg₂ Prod.mk (rowsAt m c ⟨n + 1, h⟩) ?_
      show k0_pay5 (F := Ideal) (iblk m c 0 ⟨n + 1, h⟩) (iblk m c 1 ⟨n + 1, h⟩) (outsAt m c n _).2 = _
      rw [outsAt_eq c n]
      funext y
      obtain ⟨u, k, w, rfl⟩ : ∃ (u : Fin 1) (k : Fin 2048) (w : Fin 1), y = ix3 u k w := ⟨y 0, y 1, y 2, eq_ix3 y⟩
      rw [pay5_apply, colsAt]
      show min (runMin (fun i => tileMin (Xa m c) (Ya m c) (n / 4) i k.val) (n % 4)) (tileMin (Xa m c) (Ya m c) ((n + 1) / 4) ((n + 1) % 4) k.val)
        = runMin (fun i => tileMin (Xa m c) (Ya m c) ((n + 1) / 4) i k.val) ((n + 1) % 4)
      have e1 : (n + 1) / 4 = n / 4 := by omega
      have e2 : (n + 1) % 4 = n % 4 + 1 := by omega
      rw [e1, e2]; rfl

/-! ## The blocks written back, the covers, the final arrays -/

/-- What point `t` writes back of the first output: block `t` of the nearest-point array of `X`. -/
theorem flushed2_eq (c : Dev nD) (t : Fin cfg0.N) :
    (dats m 0 c).flushed 2 t = ((cfg0.win 2).blk t).view.read (Elt Ideal) (nearestOfX (Xa m c) (Ya m c)) := by
  show (cfg0.win 2).cut (grid0.coords t) ((dats m 0 c).after 2 t) = _
  rw [after2, outsAt_eq]
  obtain ⟨e0, e1, e2⟩ := idx2 t
  funext y
  rw [View.read_apply]
  have h0 : (y 0).val < 1 := (y 0).isLt
  show rowMin (Xa m c) (Ya m c) (t.val / 4) (512 * (t.val % 4) + (y 1).val)
    = rowMin (Xa m c) (Ya m c) (win0_2.index t (0 : Fin 3) * 1 + 1 * (y 0).val) (win0_2.index t (1 : Fin 3) * 512 + 1 * (y 1).val)
  congr 1 <;> omega

/-- What the last tile's point writes back of the second output: block `t` of the nearest-point array of `Y` — the
    running minimum over all four tiles is the minimum over all rows. -/
theorem flushed3_eq (c : Dev nD) (t : Fin cfg0.N) (hf : (cfg0.win 3).flush t = true) :
    (dats m 0 c).flushed 3 t = ((cfg0.win 3).blk t).view.read (Elt Ideal) (nearestOfY (Xa m c) (Ya m c)) := by
  have h3 : t.val % 4 = 3 := (flush0_3 t).mp hf
  show (cfg0.win 3).cut (grid0.coords t) ((dats m 0 c).after 3 t) = _
  rw [after3, outsAt_eq]
  obtain ⟨e0, e1, e2⟩ := idx3 t
  funext y
  rw [View.read_apply]
  have h0 : (y 0).val < 1 := (y 0).isLt
  show runMin (fun i => tileMin (Xa m c) (Ya m c) (t.val / 4) i (y 1).val) (t.val % 4)
    = colMin (Xa m c) (Ya m c) (win0_3.index t (0 : Fin 3) * 1 + 1 * (y 0).val) (win0_3.index t (1 : Fin 3) * 2048 + 1 * (y 1).val)
  rw [h3, ← colMin_eq_runMin]
  congr 1 <;> omega

theorem mem_blk2 (t : Fin cfg0.N) (i : Col.Idx) :
    i ∈ ((cfg0.win 2).blk t).view.set ↔ ∀ a : Fin 3, win0_2.index t a * S1x512x1.size a ≤ (i a).val ∧ (i a).val < win0_2.index t a * S1x512x1.size a + S1x512x1.size a := by
  show i ∈ ((View.whole main_v0_0).slice (win0_2.rect t)).set ↔ _
  rw [View.set_slice_whole, Rect.mem_set_unit]
  exact Iff.rfl

theorem mem_blk3 (t : Fin cfg0.N) (i : Col.Idx) :
    i ∈ ((cfg0.win 3).blk t).view.set ↔ ∀ a : Fin 3, win0_3.index t a * S1x2048x1.size a ≤ (i a).val ∧ (i a).val < win0_3.index t a * S1x2048x1.size a + S1x2048x1.size a := by
  show i ∈ ((View.whole main_v0_1).slice (win0_3.rect t)).set ↔ _
  rw [View.set_slice_whole, Rect.mem_set_unit]
  exact Iff.rfl

/-- Every entry `(b, n, 0)` of the first output is in the block of point `4 b + n / 512`. -/
theorem cover2 (i : Col.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 1 := (i 2).isLt
  have hN : cfg0.N = 128 := N_0
  refine ⟨⟨4 * (i 0).val + (i 1).val / 512, by omega⟩, flush0_2 _, ?_⟩
  rw [mem_blk2]
  obtain ⟨e0, e1, e2⟩ := idx2 ⟨4 * (i 0).val + (i 1).val / 512, by omega⟩
  dsimp only at e0 e1 e2
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 512 ≤ (i 1).val ∧ (i 1).val < win0_2.index _ (1 : Fin 3) * 512 + 512; omega
  | ⟨2, _⟩ => show win0_2.index _ (2 : Fin 3) * 1 ≤ (i 2).val ∧ (i 2).val < win0_2.index _ (2 : Fin 3) * 1 + 1; omega

/-- Every entry `(b, k, 0)` of the second output is in the block of the batch's last point `4 b + 3`. -/
theorem cover3 (i : Col.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 1 := (i 2).isLt
  have hN : cfg0.N = 128 := N_0
  refine ⟨⟨4 * (i 0).val + 3, by omega⟩, (flush0_3 _).mpr (by show (4 * (i 0).val + 3) % 4 = 3; omega), ?_⟩
  rw [mem_blk3]
  obtain ⟨e0, e1, e2⟩ := idx3 ⟨4 * (i 0).val + 3, by omega⟩
  dsimp only at e0 e1 e2
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 2048 ≤ (i 1).val ∧ (i 1).val < win0_3.index _ (1 : Fin 3) * 2048 + 2048; omega
  | ⟨2, _⟩ => show win0_3.index _ (2 : Fin 3) * 1 ≤ (i 2).val ∧ (i 2).val < win0_3.index _ (2 : Fin 3) * 1 + 1; omega

/-- The first result array after the run: the nearest point of `Y` to each row of `X`. -/
theorem final2 (c : Dev nD) : (dats m 0 c).arrAt 2 cfg0.N = nearestOfX (Xa m c) (Ya m c) :=
  (dats m 0 c).arrAt_eq_of_cover 2 (nearestOfX (Xa m c) (Ya m c)) (fun t _ => flushed2_eq m c t) cover2

/-- The second result array after the run: the nearest point of `X` to each row of `Y`. -/
theorem final3 (c : Dev nD) : (dats m 0 c).arrAt 3 cfg0.N = nearestOfY (Xa m c) (Ya m c) :=
  (dats m 0 c).arrAt_eq_of_cover 3 (nearestOfY (Xa m c) (Ya m c)) (fun t hf => flushed3_eq m c t hf) cover3

end Blocks

end Cert.KernelIdeal.KValue

end
-- ==== Proof.KernelIdealResult.lean ====
/-
  The idealized kernel's result: the host operations after the region — both outputs read as [32, 2048] matrices,
  their row means, half the sum, the mean over the batches — applied to the two nearest-point arrays, that is the
  specification's loss; and the run of the whole program read at its result.
-/
import proofs.«151885_j50190987821461_1_alg».proof.Proof.KernelIdealValue
import Idealize.ShloMosaic.Lib.StableHlo.Run
import Idealize.ShloMosaic.Lib.Pipeline.FrameSuffix

set_option maxRecDepth 16384

noncomputable section

namespace Cert.KernelIdeal.KValue

open Cert.KernelIdeal Cert.KernelIdeal.Gen Cert.KernelIdeal.Body Cert.KernelIdeal.PayValue Cert.Chamfer Cert.LibMinFold
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- A [32, 2048, 1] array read as a [32, 2048] matrix: entry `(b, n)` is entry `(b, n, 0)`. -/
theorem asMatrix (G : Col.Idx → EReal) (h : Col.ShapeCasts Mat) (b : Fin 32) (n : Fin 2048) :
    shapeCast Mat G h (ix2 b n) = G (ix3 b n 0) :=
  shapeCast_apply G h (ix2 b n) (ix3 b n 0) (by
    rw [Shape.rowMajor_val_three, Shape.rowMajor_val_two]
    show (b.val * 2048 + n.val) * 1 + 0 = b.val * 2048 + n.val
    omega)

/-- The program's result buffer after the host operations that follow the region: the loss of the two nearest-point
    matrices. -/
theorem tail_eq (c : Dev nD) :
    Pipeline.afterTail₀ cfgs (dats m) 0 (V0 m) [hostOps1] c main_v13
      = loss reducesTo_S32x2048_S32_d1 h_S_ bcast_S_S32 reducesTo_S32_S_d0 (nearestOfXMat (Xa m c) (Ya m c)) (nearestOfYMat (Xa m c) (Ya m c)) := by
  have hA2 : Pipeline.withArrays (cfgs 0).spec c (V0 m c) (fun w => (dats m 0 c).arrAt w (cfgs 0).N) (Proc.devRef .tc main_v0_0)
      = nearestOfX (Xa m c) (Ya m c) :=
    (Pipeline.withArrays_arr spec0 launch0.win.arr_inj c _ _ 2).trans (final2 m c)
  have hA3 : Pipeline.withArrays (cfgs 0).spec c (V0 m c) (fun w => (dats m 0 c).arrAt w (cfgs 0).N) (Proc.devRef .tc main_v0_1)
      = nearestOfY (Xa m c) (Ya m c) :=
    (Pipeline.withArrays_arr spec0 launch0.win.arr_inj c _ _ 3).trans (final3 m c)
  unfold Pipeline.afterTail₀
  show StableHlo.after hostOps1 _ (Proc.devRef .tc main_v13) = _
  after_results
  refine congrArg₂ (loss reducesTo_S32x2048_S32_d1 h_S_ bcast_S_S32 reducesTo_S32_S_d0) ?_ ?_
  · funext j
    obtain ⟨b, n, rfl⟩ : ∃ (b : Fin 32) (n : Fin 2048), j = ix2 b n := ⟨j 0, j 1, eq_ix2 j⟩
    show shapeCast Mat (Pipeline.withArrays (cfgs 0).spec c (V0 m c) (fun w => (dats m 0 c).arrAt w (cfgs 0).N) (Proc.devRef .tc main_v0_0))
      shapeCasts_S32x2048x1_S32x2048 (ix2 b n) = _
    rw [hA2, asMatrix]; rfl
  · funext j
    obtain ⟨b, n, rfl⟩ : ∃ (b : Fin 32) (n : Fin 2048), j = ix2 b n := ⟨j 0, j 1, eq_ix2 j⟩
    show shapeCast Mat (Pipeline.withArrays (cfgs 0).spec c (V0 m c) (fun w => (dats m 0 c).arrAt w (cfgs 0).N) (Proc.devRef .tc main_v0_1))
      shapeCasts_S32x2048x1_S32x2048 (ix2 b n) = _
    rw [hA3, asMatrix]; rfl

/-- The run, read: every weakly fair execution terminates without a fault, the result buffer at the loss of the two
    nearest-point matrices of the argument arrays, the argument arrays unchanged. -/
theorem run : θ_run defs (onTc (τ := τ) (main (F := Ideal))) ⟨m, fun _ => 0, ρ⟩ fun r => ∀ c : Dev nD,
      r.2.mem ((c.tc : Thread nD τ).loc main_v13)
        = loss reducesTo_S32x2048_S32_d1 h_S_ bcast_S_S32 reducesTo_S32_S_d0 (nearestOfXMat (Xa m c) (Ya m c)) (nearestOfYMat (Xa m c) (Ya m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v13 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read against the specification: its distance tensor at `(b, n, k)` is `D b n k`; its two minimum
  reductions are the nearest-point minima; its result is the loss of the two.
-/
import proofs.«151885_j50190987821461_1_alg».proof.Proof.Gen.ReferenceIdeal.Read
import proofs.«151885_j50190987821461_1_alg».proof.Proof.ChamferSpec

noncomputable section

namespace Cert.ReferenceIdeal.RefValue

open Cert.ReferenceIdeal Cert.ReferenceIdeal.Gen Cert.ReferenceIdeal.Read Cert.Chamfer Cert.LibMinFold
open Idealize.ShloMosaic Idealize.ShloMosaic.ValueIdx

variable (X Y : Pts.Idx → EReal)

/-- The reference's distance tensor at `(b, n, k)`: the squared norms are the host's sums from `0.0` over the feature
    axis, the inner product the `dot_general`'s sum over it, each read at the rows `(b, n)` of `X` and `(b, k)` of `Y`. -/
theorem dist_apply (b : Fin 32) (n k : Fin 2048) :
    val_main_v15 (F := Ideal) X Y (ix3 b n k) = D X Y b.val n.val k.val := by
  have e1 : ∀ d : Fin 32, idx_main_v1 (idx_main_v5 (idx_main_v7 (ix3 b n k))) d = ix3 b n d := fun d =>
    funext fun a => Fin.ext (by match a with | ⟨0, _⟩ => rfl | ⟨1, _⟩ => rfl | ⟨2, _⟩ => rfl)
  have e2 : ∀ d : Fin 32, idx_main_v3 (idx_main_v6 (idx_main_v8 (ix3 b n k))) d = ix3 b k d := fun d =>
    funext fun a => Fin.ext (by match a with | ⟨0, _⟩ => rfl | ⟨1, _⟩ => rfl | ⟨2, _⟩ => rfl)
  have e3 : ∀ d : Fin 32, lidx_main_v4 (ix3 b n k) d = ix3 b n d := fun d =>
    funext fun a => Fin.ext (by match a with | ⟨0, _⟩ => rfl | ⟨1, _⟩ => rfl | ⟨2, _⟩ => rfl)
  have e4 : ∀ d : Fin 32, ridx_main_v4 (ix3 b n k) d = ix3 b k d := fun d =>
    funext fun a => Fin.ext (by match a with | ⟨0, _⟩ => rfl | ⟨1, _⟩ => rfl | ⟨2, _⟩ => rfl)
  unfold D rowDist
  rw [row_of_lt, row_of_lt]
  rw [val_main_v15_apply, val_main_v14_apply, val_main_v12_apply, val_main_v13_apply, val_main_cst_2_apply, val_main_v9_apply,
    val_main_v11_apply, val_main_v10_apply, val_main_cst_1_apply, val_main_v4_apply, val_main_v7_apply, val_main_v8_apply,
    val_main_v5_apply, val_main_v6_apply, val_main_v1_apply, val_main_v3_apply, val_main_cst_apply, val_main_cst_0_apply]
  simp only [val_main_v0_apply, val_main_v2_apply, e1, e2, e3, e4, Ideal.hostUnary_sqrt_def, Ideal.maximumf_def, Ideal.subf_def,
    Ideal.addf_def, Ideal.mulf_def, Ideal.ofBits_def, Ideal.ofBits_zero_f32, zero_add]

/-- The reference's first minimum, over `Y`'s rows: at `(b, n)` the nearest point of `Y` to row `n` of `X`. -/
theorem nearestX_eq : val_main_v16 (F := Ideal) X Y = nearestOfXMat X Y := by
  funext j
  obtain ⟨b, n, rfl⟩ : ∃ (b : Fin 32) (n : Fin 2048), j = ix2 b n := ⟨j 0, j 1, eq_ix2 j⟩
  have hr : S32x2048x2048.Reduces [2] S32x2048 := by decide
  unfold val_main_v16
  refine (hostReduce_minimumf_single (val_main_v15 (F := Ideal) X Y) (val_main_cst_3 (F := Ideal))
    reducesTo_S32x2048x2048_S32x2048_d2 hr h_S_ (ix2 b n)).trans ?_
  show _ = rowMin X Y b.val n.val
  unfold rowMin
  refine Finset.fold_congr fun k _ => ?_
  have e : hr.lift (ix2 b n) k = ix3 b n k :=
    funext fun a => Fin.ext (by match a with | ⟨0, _⟩ => rfl | ⟨1, _⟩ => rfl | ⟨2, _⟩ => rfl)
  show val_main_v15 (F := Ideal) X Y (hr.lift (ix2 b n) k) = _
  rw [e]; exact dist_apply X Y b n k

/-- The reference's second minimum, over `X`'s rows: at `(b, k)` the nearest point of `X` to row `k` of `Y`. -/
theorem nearestY_eq : val_main_v17 (F := Ideal) X Y = nearestOfYMat X Y := by
  funext j
  obtain ⟨b, k, rfl⟩ : ∃ (b : Fin 32) (k : Fin 2048), j = ix2 b k := ⟨j 0, j 1, eq_ix2 j⟩
  have hr : S32x2048x2048.Reduces [1] S32x2048 := by decide
  unfold val_main_v17
  refine (hostReduce_minimumf_single (val_main_v15 (F := Ideal) X Y) (val_main_cst_4 (F := Ideal))
    reducesTo_S32x2048x2048_S32x2048_d1 hr h_S_ (ix2 b k)).trans ?_
  show _ = colMin X Y b.val k.val
  unfold colMin
  refine Finset.fold_congr fun n _ => ?_
  have e : hr.lift (ix2 b k) n = ix3 b n k :=
    funext fun a => Fin.ext (by match a with | ⟨0, _⟩ => rfl | ⟨1, _⟩ => rfl | ⟨2, _⟩ => rfl)
  show val_main_v15 (F := Ideal) X Y (hr.lift (ix2 b k) n) = _
  rw [e]; exact dist_apply X Y b n k

/-- The reference's result is the loss of the two nearest-point matrices. -/
theorem result_eq : val_main_v28 (F := Ideal) X Y
    = loss reducesTo_S32x2048_S32_d1 h_S_ bcast_S_S32 reducesTo_S32_S_d0 (nearestOfXMat X Y) (nearestOfYMat X Y) := by
  rw [← nearestX_eq, ← nearestY_eq]
  rfl

end Cert.ReferenceIdeal.RefValue

end
-- ==== Proof.lean ====
/-
  The certificate of the Chamfer-loss kernel against its jnp reference.

  Both programs take two arrays of points `X`, `Y` : [32, 2048, 32] and return one number: the mean over the 32 batches
  of half the sum of (the mean over `X`'s rows of the distance to the nearest row of `Y`) and (the mean over `Y`'s rows of
  the distance to the nearest row of `X`), the distance of rows `x`, `y` being `sqrt (max (|x|² + |y|² − 2⟨x, y⟩) 0)`.

  * The reference forms the whole [32, 2048, 2048] distance tensor and reduces it twice (Proof/RefValue.lean over its
    generated run).
  * The kernel walks a 32 × 4 grid: one batch and one tile of 512 rows of `X` per point, against all rows of `Y`. The
    nearest row of `Y` is complete within a point; the nearest row of `X` is a running minimum over the four tiles, kept
    in the output block, which is written back after the batch's last tile. The body is run symbolically once per case
    (first tile / later tile: Proof/KernelIdealRuns.lean), the contents after each point are defined by recursion on the
    point and the library's launch theorem gives the program's run (Proof/KernelIdealBody.lean, KernelIdealFrame.lean);
    the same for the word-level kernel, whose frame is all that is claimed of it.
  * At the ideal values the two agree: the formats' changes are identities, sums may be taken in any order, and a
    minimum may be taken tile by tile (Proof/LibMinFold.lean, ChamferSpec.lean, PayValue.lean, KernelIdealValue.lean,
    KernelIdealResult.lean). No finiteness of the inputs is used.
-/
import proofs.«151885_j50190987821461_1_alg».proof.Defs
import proofs.«151885_j50190987821461_1_alg».proof.Proof.Gen.Kernel
import proofs.«151885_j50190987821461_1_alg».proof.Proof.Gen.KernelIdeal
import proofs.«151885_j50190987821461_1_alg».proof.Proof.Gen.ReferenceIdeal
import proofs.«151885_j50190987821461_1_alg».proof.Proof.Gen.Pre_finite_inputs
import proofs.«151885_j50190987821461_1_alg».proof.Proof.Gen.ReferenceIdeal.Run
import proofs.«151885_j50190987821461_1_alg».proof.Proof.Gen.ReferenceIdeal.Read
import proofs.«151885_j50190987821461_1_alg».proof.Proof.KernelFrame
import proofs.«151885_j50190987821461_1_alg».proof.Proof.KernelIdealFrame
import proofs.«151885_j50190987821461_1_alg».proof.Proof.KernelIdealResult
import proofs.«151885_j50190987821461_1_alg».proof.Proof.RefValue
import Idealize.ShloMosaic.Adequacy
import Idealize.ShloMosaic.Init

noncomputable section

namespace Cert.Proof

open Idealize.ShloMosaic Idealize.SL.Sem

/-- The word-level kernel runs to the end and leaves its arguments unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the loss of the two nearest-point matrices of their (agreeing) arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
